-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_h" .f32 0x41200000#32 ((134217728 / 13421773 : ℝ) : EReal)
  ∧ IdealRules.named_const.Statement Cert.KernelIdeal.κ "inv_h" .f32 0x41200000#32 ((134217728 / 13421773 : ℝ) : EReal)
  ∧ IdealRules.named_const.Statement Cert.KernelIdeal.κ "inv_h" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x80x80 : Shape := ⟨4, ![2, 2, 80, 80]⟩
abbrev S_ : Shape := ⟨0, ![]⟩

class Facts : Prop where
  bcast_S_S2x2x80x80 : S_.BroadcastsInDim S2x2x80x80 (![] : Fin 0 → Fin S2x2x80x80.rank)
  reducesTo_S2x2x80x80_S_d0_1_2_3 : S2x2x80x80.ReducesTo [0, 1, 2, 3] S_
  h_S_ : 0 < S_.numel

variable [Facts]

def fn {F : FTy → Type} [FloatOps F] (main_arg0 : FVec F S2x2x80x80 .f32) (main_arg1 : FVec F S2x2x80x80 .f32) : IVec S_ 1 :=
  let main_v0 : FVec F S2x2x80x80 .f32 := Host.absf main_arg0
  let main_cst : FVec F S_ .f32 := constant S_ .f32 0x7F800000#32
  let main_v1 : FVec F S2x2x80x80 .f32 := broadcastInDim S2x2x80x80 ![] bcast_S_S2x2x80x80 main_cst
  let main_v2 : IVec S2x2x80x80 1 := cmpf .olt main_v0 main_v1
  let main_c : IVec S_ 1 := constantI S_ 1 1#1
  let main_v3 : IVec S_ 1 := (fun x v => Host.reduce IntOp.andi x v reducesTo_S2x2x80x80_S_d0_1_2_3 h_S_) main_v2 main_c
  let main_v4 : FVec F S2x2x80x80 .f32 := Host.absf main_arg1
  let main_cst_0 : FVec F S_ .f32 := constant S_ .f32 0x7F800000#32
  let main_v5 : FVec F S2x2x80x80 .f32 := broadcastInDim S2x2x80x80 ![] bcast_S_S2x2x80x80 main_cst_0
  let main_v6 : IVec S2x2x80x80 1 := cmpf .olt main_v4 main_v5
  let main_c_1 : IVec S_ 1 := constantI S_ 1 1#1
  let main_v7 : IVec S_ 1 := (fun x v => Host.reduce IntOp.andi x v reducesTo_S2x2x80x80_S_d0_1_2_3 h_S_) main_v6 main_c_1
  let main_v8 : IVec S_ 1 := andi main_v3 main_v7
  main_v8
-- ==== Kernel.lean ====
abbrev S2x2x80x80 : Shape := ⟨4, ![2, 2, 80, 80]⟩
abbrev S2x2x6400 : Shape := ⟨3, ![2, 2, 6400]⟩
abbrev S_ : Shape := ⟨0, ![]⟩
abbrev S2x2 : Shape := ⟨2, ![2, 2]⟩
abbrev S2x2x1x1 : Shape := ⟨4, ![2, 2, 1, 1]⟩
abbrev S2x80x80 : Shape := ⟨3, ![2, 80, 80]⟩
abbrev S2x1x80x80 : Shape := ⟨4, ![2, 1, 80, 80]⟩
abbrev S2x6400x1 : Shape := ⟨3, ![2, 6400, 1]⟩
abbrev S1x2x256 : Shape := ⟨3, ![1, 2, 256]⟩
abbrev S1x2x6400 : Shape := ⟨3, ![1, 2, 6400]⟩
abbrev S1x256x1 : Shape := ⟨3, ![1, 256, 1]⟩
abbrev S2x256 : Shape := ⟨2, ![2, 256]⟩
abbrev S2x6400 : Shape := ⟨2, ![2, 6400]⟩
abbrev S1x256 : Shape := ⟨2, ![1, 256]⟩
abbrev S256x1 : Shape := ⟨2, ![256, 1]⟩
abbrev S1x6400 : Shape := ⟨2, ![1, 6400]⟩
abbrev S256x6400 : Shape := ⟨2, ![256, 6400]⟩
abbrev S256 : Shape := ⟨1, ![256]⟩
abbrev S2x1x6400 : Shape := ⟨3, ![2, 1, 6400]⟩
abbrev S1x6400x1 : Shape := ⟨3, ![1, 6400, 1]⟩
abbrev S1x1x256 : Shape := ⟨3, ![1, 1, 256]⟩
abbrev S6400x1 : Shape := ⟨2, ![6400, 1]⟩
abbrev S6400x256 : Shape := ⟨2, ![6400, 256]⟩
abbrev S2 : Shape := ⟨1, ![2]⟩

abbrev nBuf : Space → Nat
  | .hbm => 53
  | .vmem => 18
  | .smem => 0
  | _ => 0

abbrev bufTy : (tb : Table) → Fin (tcTables nBuf tb) → BufTy
  | .hbm, ⟨0, _⟩ => ⟨S2x2x80x80, .f32⟩
  | .hbm, ⟨1, _⟩ => ⟨S2x2x80x80, .f32⟩
  | .hbm, ⟨2, _⟩ => ⟨S2x2x6400, .f32⟩
  | .hbm, ⟨3, _⟩ => ⟨S_, .f32⟩
  | .hbm, ⟨4, _⟩ => ⟨S2x2, .f32⟩
  | .hbm, ⟨5, _⟩ => ⟨S_, .f32⟩
  | .hbm, ⟨6, _⟩ => ⟨S2x2, .f32⟩
  | .hbm, ⟨7, _⟩ => ⟨S2x2, .f32⟩
  | .hbm, ⟨8, _⟩ => ⟨S2x2x1x1, .f32⟩
  | .hbm, ⟨9, _⟩ => ⟨S2x2x80x80, .f32⟩
  | .hbm, ⟨10, _⟩ => ⟨S2x2x80x80, .f32⟩
  | .hbm, ⟨11, _⟩ => ⟨S2x2x80x80, .f32⟩
  | .hbm, ⟨12, _⟩ => ⟨S2x2x80x80, .f32⟩
  | .hbm, ⟨13, _⟩ => ⟨S2x2x80x80, .f32⟩
  | .hbm, ⟨14, _⟩ => ⟨S_, .f32⟩
  | .hbm, ⟨15, _⟩ => ⟨S2x80x80, .f32⟩
  | .hbm, ⟨16, _⟩ => ⟨S2x1x80x80, .f32⟩
  | .hbm, ⟨17, _⟩ => ⟨S2x1x80x80, .f32⟩
  | .hbm, ⟨18, _⟩ => ⟨S_, .f32⟩
  | .hbm, ⟨19, _⟩ => ⟨S2x1x80x80, .f32⟩
  | .hbm, ⟨20, _⟩ => ⟨S2x1x80x80, .f32⟩
  | .hbm, ⟨21, _⟩ => ⟨S2x2x80x80, .f32⟩
  | .hbm, ⟨22, _⟩ => ⟨S2x2x80x80, .f32⟩
  | .hbm, ⟨23, _⟩ => ⟨S2x2x6400, .f32⟩
  | .hbm, ⟨24, _⟩ => ⟨S2x2x80x80, .f32⟩
  | .hbm, ⟨25, _⟩ => ⟨S_, .f32⟩
  | .hbm, ⟨26, _⟩ => ⟨S2x80x80, .f32⟩
  | .hbm, ⟨27, _⟩ => ⟨S2x1x80x80, .f32⟩
  | .hbm, ⟨28, _⟩ => ⟨S2x1x80x80, .f32⟩
  | .hbm, ⟨29, _⟩ => ⟨S_, .f32⟩
  | .hbm, ⟨30, _⟩ => ⟨S2x1x80x80, .f32⟩
  | .hbm, ⟨31, _⟩ => ⟨S2x1x80x80, .f32⟩
  | .hbm, ⟨32, _⟩ => ⟨S2x2x80x80, .f32⟩
  | .hbm, ⟨33, _⟩ => ⟨S2x2x80x80, .f32⟩
  | .hbm, ⟨34, _⟩ => ⟨S2x2x6400, .f32⟩
  | .hbm, ⟨35, _⟩ => ⟨S2x6400x1, .f32⟩
  | .hbm, ⟨36, _⟩ => ⟨S2x6400x1, .f32⟩
  | .hbm, ⟨37, _⟩ => ⟨S2x1x6400, .f32⟩
  | .hbm, ⟨38, _⟩ => ⟨S2x6400, .f32⟩
  | .hbm, ⟨39, _⟩ => ⟨S_, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S_, .f32⟩
  | .hbm, ⟨45, _⟩ => ⟨S2, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x2x256, .f32⟩
  | .local _ .vmem, ⟨1, _⟩ => ⟨S1x2x256, .f32⟩
  | .local _ .vmem, ⟨2, _⟩ => ⟨S1x2x6400, .f32⟩
  | .local _ .vmem, ⟨3, _⟩ => ⟨S1x2x6400, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x2x6400, .f32⟩
  | .local _ .vmem, ⟨9, _⟩ => ⟨S1x2x6400, .f32⟩
  | .local _ .vmem, ⟨10, _⟩ => ⟨S1x2x256, .f32⟩
  | .local _ .vmem, ⟨11, _⟩ => ⟨S1x2x256, .f32⟩
  | .local _ .vmem, ⟨12, _⟩ => ⟨S1x6400x1, .f32⟩
  | .local _ .vmem, ⟨13, _⟩ => ⟨S1x6400x1, .f32⟩
  | .local _ .vmem, ⟨14, _⟩ => ⟨S1x6400x1, .f32⟩
  | .local _ .vmem, ⟨15, _⟩ => ⟨S1x6400x1, .f32⟩
  | .local _ .vmem, ⟨16, _⟩ => ⟨S1x1x256, .f32⟩
  | .local _ .vmem, ⟨17, _⟩ => ⟨S1x1x256, .f32⟩
  | _, _ => ⟨S2x2x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x6400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2x80x80_S2x2x6400 : S2x2x80x80.ShapeCasts S2x2x6400
  reducesTo_S2x2x6400_S2x2_d2 : S2x2x6400.ReducesTo [2] S2x2
  h_S_ : 0 < S_.numel
  bcast_S_S2x2 : S_.BroadcastsInDim S2x2 (![] : Fin 0 → Fin S2x2.rank)
  bcast_S2x2_S2x2x1x1_0_1 : S2x2.BroadcastsInDim S2x2x1x1 (![0, 1] : Fin 2 → Fin S2x2x1x1.rank)
  bcast_S2x2x1x1_S2x2x80x80_0_1_2_3 : S2x2x1x1.BroadcastsInDim S2x2x80x80 (![0, 1, 2, 3] : Fin 4 → Fin S2x2x80x80.rank)
  reducesTo_S2x2x80x80_S2x80x80_d1 : S2x2x80x80.ReducesTo [1] S2x80x80
  bcast_S2x80x80_S2x1x80x80_0_2_3 : S2x80x80.BroadcastsInDim S2x1x80x80 (![0, 2, 3] : Fin 3 → Fin S2x1x80x80.rank)
  bcast_S_S2x1x80x80 : S_.BroadcastsInDim S2x1x80x80 (![] : Fin 0 → Fin S2x1x80x80.rank)
  bcast_S2x1x80x80_S2x2x80x80_0_1_2_3 : S2x1x80x80.BroadcastsInDim S2x2x80x80 (![0, 1, 2, 3] : Fin 4 → Fin S2x2x80x80.rank)
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  inb_S1x2x6400_S1x2x6400_0_0_0 : ∀ a, (![0, 0, 0] : Fin 3 → Nat) a + S1x2x6400.size a ≤ S1x2x6400.size a
  h_S1x2x6400 : 0 < S1x2x6400.numel
  shapeCasts_S1x2x6400_S2x6400 : S1x2x6400.ShapeCasts S2x6400
  slices_S2x256_o0_0_S1x256 : S2x256.Slices ![0, 0] S1x256
  transposes_S1x256_p1_0_S256x1 : S1x256.Transposes [1, 0] S256x1
  slices_S2x256_o1_0_S1x256 : S2x256.Slices ![1, 0] S1x256
  slices_S2x6400_o0_0_S1x6400 : S2x6400.Slices ![0, 0] S1x6400
  slices_S2x6400_o1_0_S1x6400 : S2x6400.Slices ![1, 0] S1x6400
  broadcasts_S256x1_S256x6400 : S256x1.Broadcasts S256x6400
  broadcasts_S1x6400_S256x6400 : S1x6400.Broadcasts S256x6400
  reduces_S256x6400_S256 : S256x6400.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  transposes_S1x6400_p1_0_S6400x1 : S1x6400.Transposes [1, 0] S6400x1
  broadcasts_S6400x1_S6400x256 : S6400x1.Broadcasts S6400x256
  broadcasts_S1x256_S6400x256 : S1x256.Broadcasts S6400x256
  inb_S1x6400x1_S1x6400x1_0_0_0 : ∀ a, (![0, 0, 0] : Fin 3 → Nat) a + S1x6400x1.size a ≤ S1x6400x1.size a
  h_S1x6400x1 : 0 < S1x6400x1.numel
  shapeCasts_S1x6400x1_S6400x1 : S1x6400x1.ShapeCasts S6400x1
  reduces_S6400x256_S256 : S6400x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S2x1x6400_S2x6400 : S2x1x6400.ShapeCasts S2x6400
  reducesTo_S2x6400_S2_d1 : S2x6400.ReducesTo [1] S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x256.size a ≤ S2x2x6400.size a
  hwx0_0 : ∀ i : grid0.Coords, EltTy.bits .f32 = 32 ∨ (Rect.block (s := S2x2x6400) S1x2x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x6400.size a ≤ S2x2x6400.size a
  hwx0_1 : ∀ i : grid0.Coords, EltTy.bits .f32 = 32 ∨ (Rect.block (s := S2x2x6400) S1x2x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x6400x1.size a
  hwx0_2 : ∀ i : grid0.Coords, EltTy.bits .f32 = 32 ∨ (Rect.block (s := S2x6400x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x6400x1.size a
  hwx0_3 : ∀ i : grid0.Coords, EltTy.bits .f32 = 32 ∨ (Rect.block (s := S2x6400x1) S1x256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x6400.size a ≤ S2x2x6400.size a
  hwx1_0 : ∀ i : grid1.Coords, EltTy.bits .f32 = 32 ∨ (Rect.block (s := S2x2x6400) S1x2x6400.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x256.size a ≤ S2x2x6400.size a
  hwx1_1 : ∀ i : grid1.Coords, EltTy.bits .f32 = 32 ∨ (Rect.block (s := S2x2x6400) S1x2x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6400x1.size a ≤ S2x6400x1.size a
  hwx1_2 : ∀ i : grid1.Coords, EltTy.bits .f32 = 32 ∨ (Rect.block (s := S2x6400x1) S1x6400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x6400x1.size a ≤ S2x6400x1.size a
  hwx1_3 : ∀ i : grid1.Coords, EltTy.bits .f32 = 32 ∨ (Rect.block (s := S2x6400x1) S1x6400x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S2x1x6400.size a
  hwx1_4 : ∀ i : grid1.Coords, EltTy.bits .f32 = 32 ∨ (Rect.block (s := S2x1x6400) S1x1x256.size (cc1_transform_4 i) (hinb1_4 i)).WholeWords (EltTy.packing .f32)

variable [Facts₀]

abbrev win0_0 : Pipeline.Window sig grid0 :=
  Pipeline.Window.ofSpec (Memref.whole main_v14) S1x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x2x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x2x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x2x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S1x6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x6400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2x80x80 : Shape := ⟨4, ![2, 2, 80, 80]⟩
abbrev S2x2x6400 : Shape := ⟨3, ![2, 2, 6400]⟩
abbrev S_ : Shape := ⟨0, ![]⟩
abbrev S2x2 : Shape := ⟨2, ![2, 2]⟩
abbrev S2x2x1x1 : Shape := ⟨4, ![2, 2, 1, 1]⟩
abbrev S2x80x80 : Shape := ⟨3, ![2, 80, 80]⟩
abbrev S2x1x80x80 : Shape := ⟨4, ![2, 1, 80, 80]⟩
abbrev S2x6400x6400 : Shape := ⟨3, ![2, 6400, 6400]⟩
abbrev S2x6400 : Shape := ⟨2, ![2, 6400]⟩
abbrev S2x6400x1 : Shape := ⟨3, ![2, 6400, 1]⟩
abbrev S2 : Shape := ⟨1, ![2]⟩

abbrev nBuf : Space → Nat
  | .hbm => 75
  | .vmem => 0
  | .smem => 0
  | _ => 0

abbrev bufTy : (tb : Table) → Fin (tcTables nBuf tb) → BufTy
  | .hbm, ⟨0, _⟩ => ⟨S2x2x80x80, .f32⟩
  | .hbm, ⟨1, _⟩ => ⟨S2x2x80x80, .f32⟩
  | .hbm, ⟨2, _⟩ => ⟨S2x2x6400, .f32⟩
  | .hbm, ⟨3, _⟩ => ⟨S_, .f32⟩
  | .hbm, ⟨4, _⟩ => ⟨S2x2, .f32⟩
  | .hbm, ⟨5, _⟩ => ⟨S_, .f32⟩
  | .hbm, ⟨6, _⟩ => ⟨S2x2, .f32⟩
  | .hbm, ⟨7, _⟩ => ⟨S2x2, .f32⟩
  | .hbm, ⟨8, _⟩ => ⟨S2x2x1x1, .f32⟩
  | .hbm, ⟨9, _⟩ => ⟨S2x2x80x80, .f32⟩
  | .hbm, ⟨10, _⟩ => ⟨S2x2x80x80, .f32⟩
  | .hbm, ⟨11, _⟩ => ⟨S2x2x80x80, .f32⟩
  | .hbm, ⟨12, _⟩ => ⟨S2x2x80x80, .f32⟩
  | .hbm, ⟨13, _⟩ => ⟨S2x2x80x80, .f32⟩
  | .hbm, ⟨14, _⟩ => ⟨S_, .f32⟩
  | .hbm, ⟨15, _⟩ => ⟨S2x80x80, .f32⟩
  | .hbm, ⟨16, _⟩ => ⟨S2x1x80x80, .f32⟩
  | .hbm, ⟨17, _⟩ => ⟨S2x1x80x80, .f32⟩
  | .hbm, ⟨18, _⟩ => ⟨S_, .f32⟩
  | .hbm, ⟨19, _⟩ => ⟨S2x1x80x80, .f32⟩
  | .hbm, ⟨20, _⟩ => ⟨S2x1x80x80, .f32⟩
  | .hbm, ⟨21, _⟩ => ⟨S2x2x80x80, .f32⟩
  | .hbm, ⟨22, _⟩ => ⟨S2x2x80x80, .f32⟩
  | .hbm, ⟨23, _⟩ => ⟨S2x2x6400, .f32⟩
  | .hbm, ⟨24, _⟩ => ⟨S2x2x80x80, .f32⟩
  | .hbm, ⟨25, _⟩ => ⟨S_, .f32⟩
  | .hbm, ⟨26, _⟩ => ⟨S2x80x80, .f32⟩
  | .hbm, ⟨27, _⟩ => ⟨S2x1x80x80, .f32⟩
  | .hbm, ⟨28, _⟩ => ⟨S2x1x80x80, .f32⟩
  | .hbm, ⟨29, _⟩ => ⟨S_, .f32⟩
  | .hbm, ⟨30, _⟩ => ⟨S2x1x80x80, .f32⟩
  | .hbm, ⟨31, _⟩ => ⟨S2x1x80x80, .f32⟩
  | .hbm, ⟨32, _⟩ => ⟨S2x2x80x80, .f32⟩
  | .hbm, ⟨33, _⟩ => ⟨S2x2x80x80, .f32⟩
  | .hbm, ⟨34, _⟩ => ⟨S2x2x6400, .f32⟩
  | .hbm, ⟨35, _⟩ => ⟨S2x6400x6400, .f32⟩
  | .hbm, ⟨36, _⟩ => ⟨S_, .f32⟩
  | .hbm, ⟨37, _⟩ => ⟨S2x6400x6400, .f32⟩
  | .hbm, ⟨38, _⟩ => ⟨S2x6400x6400, .f32⟩
  | .hbm, ⟨39, _⟩ => ⟨S_, .f32⟩
  | .hbm, ⟨40, _⟩ => ⟨S2x6400, .f32⟩
  | .hbm, ⟨41, _⟩ => ⟨S2x6400x1, .f32⟩
  | .hbm, ⟨42, _⟩ => ⟨S_, .f32⟩
  | .hbm, ⟨43, _⟩ => ⟨S2x6400x1, .f32⟩
  | .hbm, ⟨44, _⟩ => ⟨S2x6400x1, .f32⟩
  | .hbm, ⟨45, _⟩ => ⟨S2x6400x6400, .f32⟩
  | .hbm, ⟨46, _⟩ => ⟨S2x6400x6400, .f32⟩
  | .hbm, ⟨47, _⟩ => ⟨S_, .f32⟩
  | .hbm, ⟨48, _⟩ => ⟨S2x6400x6400, .f32⟩
  | .hbm, ⟨49, _⟩ => ⟨S2x6400x6400, .f32⟩
  | .hbm, ⟨50, _⟩ => ⟨S_, .f32⟩
  | .hbm, ⟨51, _⟩ => ⟨S2x6400x6400, .f32⟩
  | .hbm, ⟨52, _⟩ => ⟨S2x6400x6400, .f32⟩
  | .hbm, ⟨53, _⟩ => ⟨S2x6400x6400, .f32⟩
  | .hbm, ⟨54, _⟩ => ⟨S_, .f32⟩
  | .hbm, ⟨55, _⟩ => ⟨S2x6400, .f32⟩
  | .hbm, ⟨56, _⟩ => ⟨S2x6400x1, .f32⟩
  | .hbm, ⟨57, _⟩ => ⟨S2x6400x6400, .f32⟩
  | .hbm, ⟨58, _⟩ => ⟨S2x6400x6400, .f32⟩
  | .hbm, ⟨59, _⟩ => ⟨S_, .f32⟩
  | .hbm, ⟨60, _⟩ => ⟨S2x6400, .f32⟩
  | .hbm, ⟨61, _⟩ => ⟨S_, .f32⟩
  | .hbm, ⟨62, _⟩ => ⟨S2, .f32⟩
  | .hbm, ⟨63, _⟩ => ⟨S_, .f32⟩
  | .hbm, ⟨64, _⟩ => ⟨S2, .f32⟩
  | .hbm, ⟨65, _⟩ => ⟨S2, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S2, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S2x2x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩

abbrev nD : Nat := 1
abbrev τ : Topo := Topo.v7x

variable {F : FTy → Type} [FloatOps F]

class Facts₀ : Prop where
  shapeCasts_S2x2x80x80_S2x2x6400 : S2x2x80x80.ShapeCasts S2x2x6400
  reducesTo_S2x2x6400_S2x2_d2 : S2x2x6400.ReducesTo [2] S2x2
  h_S_ : 0 < S_.numel
  bcast_S_S2x2 : S_.BroadcastsInDim S2x2 (![] : Fin 0 → Fin S2x2.rank)
  bcast_S2x2_S2x2x1x1_0_1 : S2x2.BroadcastsInDim S2x2x1x1 (![0, 1] : Fin 2 → Fin S2x2x1x1.rank)
  bcast_S2x2x1x1_S2x2x80x80_0_1_2_3 : S2x2x1x1.BroadcastsInDim S2x2x80x80 (![0, 1, 2, 3] : Fin 4 → Fin S2x2x80x80.rank)
  reducesTo_S2x2x80x80_S2x80x80_d1 : S2x2x80x80.ReducesTo [1] S2x80x80
  bcast_S2x80x80_S2x1x80x80_0_2_3 : S2x80x80.BroadcastsInDim S2x1x80x80 (![0, 2, 3] : Fin 3 → Fin S2x1x80x80.rank)
  bcast_S_S2x1x80x80 : S_.BroadcastsInDim S2x1x80x80 (![] : Fin 0 → Fin S2x1x80x80.rank)
  bcast_S2x1x80x80_S2x2x80x80_0_1_2_3 : S2x1x80x80.BroadcastsInDim S2x2x80x80 (![0, 1, 2, 3] : Fin 4 → Fin S2x2x80x80.rank)
  bcast_S_S2x6400x6400 : S_.BroadcastsInDim S2x6400x6400 (![] : Fin 0 → Fin S2x6400x6400.rank)
  reducesTo_S2x6400x6400_S2x6400_d2 : S2x6400x6400.ReducesTo [2] S2x6400
  bcast_S2x6400_S2x6400x1_0_1 : S2x6400.BroadcastsInDim S2x6400x1 (![0, 1] : Fin 2 → Fin S2x6400x1.rank)
  bcast_S_S2x6400x1 : S_.BroadcastsInDim S2x6400x1 (![] : Fin 0 → Fin S2x6400x1.rank)
  bcast_S2x6400x1_S2x6400x6400_0_1_2 : S2x6400x1.BroadcastsInDim S2x6400x6400 (![0, 1, 2] : Fin 3 → Fin S2x6400x6400.rank)
  reducesTo_S2x6400x6400_S2x6400_d1 : S2x6400x6400.ReducesTo [1] S2x6400
  reducesTo_S2x6400_S2_d1 : S2x6400.ReducesTo [1] S2
  bcast_S_S2 : S_.BroadcastsInDim S2 (![] : Fin 0 → Fin S2.rank)
  reducesTo_S2_S_d0 : S2.ReducesTo [0] S_
  dot_S2x2x6400_S2x2x6400_S2x6400x6400_1_1_2_2_0_0_wf : DotDims.WF S2x2x6400 S2x2x6400 S2x6400x6400 [1] [1] [2] [2] [0] [0]

variable [Facts₀]

def dot_S2x2x6400_S2x2x6400_S2x6400x6400_1_1_2_2_0_0 : DotDims S2x2x6400 S2x2x6400 S2x6400x6400 where
  lhsContracting := [1]
  rhsContracting := [1]
  lhsNonContracting := [2]
  rhsNonContracting := [2]
  lhsBatch := [0]
  rhsBatch := [0]
  wf := dot_S2x2x6400_S2x2x6400_S2x6400x6400_1_1_2_2_0_0_wf

class Facts : Prop extends Facts₀ where

variable [Facts]
-- ==== Proof.KernelRun.lean ====
/-
  The idealized kernel program's run with its result named: every weakly fair execution ends with the result
  buffer at the contents the last boundary of the program's segments gives it, and the arguments as launched.
-/
import proofs.«161821_j14353780703730_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v32) = W8 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v32 (by decide)),
       (h c _ (mem_uc main_arg0 (by decide))).trans (W8_main_arg0 m ρ c),
       (h c _ (mem_uc main_arg1 (by decide))).trans (W8_main_arg1 m ρ c)⟩)

end Cert.KernelIdeal.RunValue

end
-- ==== Proof.Affinity.lean ====
/-
  The contextual affinity, index by index, as both programs compute it at the exact instance.

  Features are two arrays [2, 2, 6400] (batch, channel, position) of extended reals.  For a batch `b`, a row
  position `n` and a column position `m` the cosine distance is `1 - (x₀(n) y₀(m) + x₁(n) y₁(m))`.  Each row is
  scaled by its minimum distance plus a small constant, exponentiated with bandwidth `h`, and normalised by the
  row's sum; the result is the maximum of each column.

  One program divides, per element, by the scaled minimum and then by `h`, and divides the exponential by the row
  sum.  The other multiplies by the per-row factor `κ / (min + ε)` with `κ = 1/h`, subtracts from `κ`, and folds the
  row sum into the exponent as `κ - log (sum)`.  Both forms are stated here with the operations each program
  applies, so that each program's value is one of them literally; that the two agree on real features inside the
  unit disc is proved separately.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- A feature array: [batch 2, channel 2, position 6400]. -/
abbrev Feat : Type := (⟨3, ![2, 2, 6400]⟩ : Shape).Idx → EReal

/-- The constants both programs carry, as their words denote them. -/
def one : EReal := Ideal.ofBits .f32 0x3F800000#32
def epsMin : EReal := Ideal.ofBits .f32 0x3727C5AC#32
def band : EReal := Ideal.ofBits .f32 0x3DCCCCCD#32
def posInf : EReal := Ideal.ofBits .f32 0x7F800000#32
def negInf : EReal := Ideal.ofBits .f32 0xFF800000#32

/-- The cosine distance of row position `n` and column position `m` in batch `b`. -/
def dist (xf yf : Feat) (b : Fin 2) (n m : Fin 6400) : EReal :=
  one - (xf (ix3 b 0 n) * yf (ix3 b 0 m) + xf (ix3 b 1 n) * yf (ix3 b 1 m))

/-- The least distance of row `n`, folded from `+∞`. -/
def rowMin (xf yf : Feat) (b : Fin 2) (n : Fin 6400) : EReal :=
  Finset.univ.fold min posInf (fun m : Fin 6400 => dist xf yf b n m)

/-! ## The folded form: per-row factor and shift (`κ` stands for the reciprocal bandwidth) -/

def scaleK (κ : EReal) (xf yf : Feat) (b : Fin 2) (n : Fin 6400) : EReal :=
  Ideal.div κ (rowMin xf yf b n + epsMin)

def argK (κ : EReal) (xf yf : Feat) (b : Fin 2) (n m : Fin 6400) : EReal :=
  κ - dist xf yf b n m * scaleK κ xf yf b n

def rowSumK (κ : EReal) (xf yf : Feat) (b : Fin 2) (n : Fin 6400) : EReal :=
  ∑ m : Fin 6400, Ideal.exp (argK κ xf yf b n m)

def shiftK (κ : EReal) (xf yf : Feat) (b : Fin 2) (n : Fin 6400) : EReal :=
  κ - Ideal.log (rowSumK κ xf yf b n)

def affK (κ : EReal) (xf yf : Feat) (b : Fin 2) (n m : Fin 6400) : EReal :=
  Ideal.exp (shiftK κ xf yf b n - dist xf yf b n m * scaleK κ xf yf b n)

/-- The column maximum of the folded form, folded from `-∞`. -/
def colMaxK (κ : EReal) (xf yf : Feat) (b : Fin 2) (m : Fin 6400) : EReal :=
  Finset.univ.fold max negInf (fun n : Fin 6400 => affK κ xf yf b n m)

/-! ## The quotient form -/

def argR (xf yf : Feat) (b : Fin 2) (n m : Fin 6400) : EReal :=
  Ideal.div (one - Ideal.div (dist xf yf b n m) (rowMin xf yf b n + epsMin)) band

def rowSumR (xf yf : Feat) (b : Fin 2) (n : Fin 6400) : EReal :=
  ∑ m : Fin 6400, Ideal.exp (argR xf yf b n m)

def affR (xf yf : Feat) (b : Fin 2) (n m : Fin 6400) : EReal :=
  Ideal.div (Ideal.exp (argR xf yf b n m)) (rowSumR xf yf b n)

/-- The column maximum of the quotient form, folded from `-∞`. -/
def colMaxR (xf yf : Feat) (b : Fin 2) (m : Fin 6400) : EReal :=
  Finset.univ.fold max negInf (fun n : Fin 6400 => affR xf yf b n m)

/-- A feature array of real numbers whose two channels lie in the unit disc at every position. -/
def InDisc (f : Feat) : Prop :=
  ∀ (b : Fin 2) (n : Fin 6400), ∃ p q : ℝ, f (ix3 b 0 n) = (p : EReal) ∧ f (ix3 b 1 n) = (q : EReal) ∧ p ^ 2 + q ^ 2 ≤ 1

/-! ## From the column maxima to the loss -/

/-- The mean over positions of the column maxima, `-log` of it plus a small constant, and the mean over the two
    batches: the operations both programs apply to the [2, 6400] array of column maxima. -/
def loss (h1 : (⟨2, ![2, 6400]⟩ : Shape).ReducesTo [1] ⟨1, ![2]⟩) (h0 : 0 < (⟨0, ![]⟩ : Shape).numel)
    (hb : (⟨0, ![]⟩ : Shape).BroadcastsInDim ⟨1, ![2]⟩ (![] : Fin 0 → Fin (⟨1, ![2]⟩ : Shape).rank))
    (h2 : (⟨1, ![2]⟩ : Shape).ReducesTo [0] ⟨0, ![]⟩)
    (cm : FVec Ideal ⟨2, ![2, 6400]⟩ .f32) : FVec Ideal ⟨0, ![]⟩ .f32 :=
  Host.divf (F := Ideal)
    (Host.reduceAdd (F := Ideal)
      (Host.negf (F := Ideal) (Host.log (F := Ideal) (addf (F := Ideal)
        (Host.divf (F := Ideal) (Host.reduceAdd (F := Ideal) cm (constant (F := Ideal) ⟨0, ![]⟩ .f32 0x00000000#32) h1 h0)
          (broadcastInDim ⟨1, ![2]⟩ ![] hb (constant (F := Ideal) ⟨0, ![]⟩ .f32 0x45C80000#32)))
        (broadcastInDim ⟨1, ![2]⟩ ![] hb (constant (F := Ideal) ⟨0, ![]⟩ .f32 0x3727C5AC#32)))))
      (constant (F := Ideal) ⟨0, ![]⟩ .f32 0x00000000#32) h2 h0)
    (constant (F := Ideal) ⟨0, ![]⟩ .f32 0x40000000#32)

end Cert.Affinity

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.Body0.lean ====
/-
  The first kernel's body at an index, at the exact values.  Its loads are a [1, 2, 256] block of the row features and
  a [1, 2, 6400] block of the column features; it stores, per row of the block, the scale `κ / (min + ε)` and the shift
  `κ - log (row sum)`.
-/
import proofs.«161821_j14353780703730_2_alg».proof.Proof.Gen.KernelIdeal.Skeleton
import proofs.«161821_j14353780703730_2_alg».proof.Proof.Affinity
import proofs.«161821_j14353780703730_2_alg».proof.Proof.LibRowMin
import proofs.«161821_j14353780703730_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.LibColumns Cert.LibRowMin

/-- The named reciprocal bandwidth, as the extended real the table gives it. -/
abbrev kap : EReal := Named.named (F := Ideal) κ "inv_h" (φ := .f32) 0x41200000#32

theorem kap_eq : kap = ((134217728 / 13421773 : ℝ) : EReal) :=
  IdealRules.named_const.ideal_named_scalar _ _ _ _ rfl

/-- The distance of row `r` of the row block and column `m` of the column block. -/
theorem pay2_apply (x0 : Vec Ideal S1x2x256 .f32) (x1 : Vec Ideal S1x2x6400 .f32) (r : Fin 256) (m : Fin 6400) :
    k0_pay2 (F := Ideal) x0 x1 (ix2 r m)
      = Cert.Affinity.one - (x0 (ix3 (0 : Fin 1) (0 : Fin 2) r) * x1 (ix3 (0 : Fin 1) (0 : Fin 2) m)
          + x0 (ix3 (0 : Fin 1) (1 : Fin 2) r) * x1 (ix3 (0 : Fin 1) (1 : Fin 2) m)) := by
  unfold k0_pay2
  simp only [subf_apply, addf_apply, mulf_apply, broadcast_apply, broadcastTo_a1_ab_apply, broadcastTo_1b_ab_apply,
    slice2_axis0_eq, shapeCast_1ab_ab_apply]
  rw [transpose_ix2_apply, transpose_ix2_apply]
  simp only [slice2_axis0_eq, shapeCast_1ab_ab_apply]
  rfl

/-- The scale of row `r`: `κ` over the row's least distance plus `ε`. -/
theorem pay3_apply (x0 : Vec Ideal S1x2x256 .f32) (x1 : Vec Ideal S1x2x6400 .f32) (r : Fin 256) (u : Fin 1) :
    k0_pay3 (F := Ideal) x0 x1 (ix2 r u)
      = Ideal.div kap (Finset.univ.fold min Cert.Affinity.posInf (fun m : Fin 6400 => k0_pay2 (F := Ideal) x0 x1 (ix2 r m))
          + Cert.Affinity.epsMin) := by
  unfold k0_pay3
  refine (divf_apply _ _ _).trans ?_
  refine congrArg₂ Ideal.div rfl ?_
  refine (addf_apply _ _ _).trans ?_
  refine congrArg₂ (· + ·) ?_ rfl
  refine (shapeCast_a_a1_apply _ _ r u).trans ?_
  exact multiReduction_min_rows_apply _ _ _ _ _ r

/-- The shift of row `r`: `κ` minus the log of the row's sum of exponentials. -/
theorem pay4_apply (x0 : Vec Ideal S1x2x256 .f32) (x1 : Vec Ideal S1x2x6400 .f32) (r : Fin 256) (u : Fin 1) :
    k0_pay4 (F := Ideal) x0 x1 (ix2 r u)
      = kap - Ideal.log (∑ m : Fin 6400, Ideal.exp (kap - k0_pay2 (F := Ideal) x0 x1 (ix2 r m) * k0_pay3 (F := Ideal) x0 x1 (ix2 r (0 : Fin 1)))) := by
  unfold k0_pay4
  simp only [Idealize.ShloMosaic.log, subf_apply, broadcast_apply, shapeCast_a_a1_apply]
  refine congrArg (fun z => kap - Ideal.log z) ?_
  refine (multiReduction_add_rows_apply _ _ _ _ _ r).trans ?_
  refine Finset.sum_congr rfl fun m _ => ?_
  simp only [Idealize.ShloMosaic.exp, subf_apply, mulf_apply, broadcast_apply, broadcastTo_a1_ab_apply]
  rfl

/-- The stored scale block is the scale column with a leading unit axis. -/
theorem pay5_apply (x0 : Vec Ideal S1x2x256 .f32) (x1 : Vec Ideal S1x2x6400 .f32) (z : Fin 1) (r : Fin 256) (u : Fin 1) :
    k0_pay5 (F := Ideal) x0 x1 (ix3 z r u) = k0_pay3 (F := Ideal) x0 x1 (ix2 r u) := by
  unfold k0_pay5
  exact shapeCast_ab_1ab_apply _ _ z r u

/-- The stored shift block is the shift column with a leading unit axis. -/
theorem pay1_apply (v : FVec Ideal S256x1 .f32) (z : Fin 1) (r : Fin 256) (u : Fin 1) :
    k0_pay1 (F := Ideal) v (ix3 z r u) = v (ix2 r u) := by
  unfold k0_pay1
  exact shapeCast_ab_1ab_apply _ _ z r u

end Cert.KernelIdeal.Body

end
-- ==== Proof.Region0.lean ====
/-
  The first kernel region as whole arrays.  Point `t` of its 2 × 25 grid works on batch `t / 25` and on rows
  `256 · (t % 25) … 256 · (t % 25) + 255`; it reads those rows' features and all the batch's column features and writes
  back the rows' scales and shifts.  The blocks written tile the two [2, 6400, 1] result arrays, so after the region each
  holds, at (batch, row, 0), that row's scale (resp. shift) of the feature arrays the region found.
-/
import proofs.«161821_j14353780703730_2_alg».proof.Proof.Gen.KernelIdeal.Frame
import proofs.«161821_j14353780703730_2_alg».proof.Proof.Body0
import proofs.«161821_j14353780703730_2_alg».proof.Proof.Affinity

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Affinity (Feat)

/-! ## The body's results from blocks of the feature arrays -/

section Blocks

variable (xf yf : Feat) (x0 : Vec Ideal S1x2x256 .f32) (x1 : Vec Ideal S1x2x6400 .f32) (b : Fin 2) (i : Fin 25)
  (hx0 : ∀ (ch : Fin 2) (r : Fin 256), x0 (ix3 (0 : Fin 1) ch r)
      = xf (ix3 b ch ⟨i.val * 256 + r.val, by have := i.isLt; have := r.isLt; omega⟩))
  (hx1 : ∀ (ch : Fin 2) (m : Fin 6400), x1 (ix3 (0 : Fin 1) ch m) = yf (ix3 b ch m))

include hx0 hx1

/-- Row `r` of the row block against column `m`: the distance of row `256 i + r` and column `m`. -/
theorem dist_of_blocks (r : Fin 256) (m : Fin 6400) :
    k0_pay2 (F := Ideal) x0 x1 (ix2 r m)
      = Cert.Affinity.dist xf yf b ⟨i.val * 256 + r.val, by have := i.isLt; have := r.isLt; omega⟩ m := by
  rw [Body.pay2_apply, hx0, hx0, hx1, hx1]; rfl

/-- The stored scale of row `r` of the block. -/
theorem scale_of_blocks (r : Fin 256) (u : Fin 1) :
    k0_pay3 (F := Ideal) x0 x1 (ix2 r u)
      = Cert.Affinity.scaleK Body.kap xf yf b ⟨i.val * 256 + r.val, by have := i.isLt; have := r.isLt; omega⟩ := by
  rw [Body.pay3_apply]
  unfold Cert.Affinity.scaleK Cert.Affinity.rowMin
  simp only [dist_of_blocks xf yf x0 x1 b i hx0 hx1]

/-- The stored shift of row `r` of the block. -/
theorem shift_of_blocks (r : Fin 256) (u : Fin 1) :
    k0_pay4 (F := Ideal) x0 x1 (ix2 r u)
      = Cert.Affinity.shiftK Body.kap xf yf b ⟨i.val * 256 + r.val, by have := i.isLt; have := r.isLt; omega⟩ := by
  rw [Body.pay4_apply]
  unfold Cert.Affinity.shiftK Cert.Affinity.rowSumK Cert.Affinity.argK
  simp only [dist_of_blocks xf yf x0 x1 b i hx0 hx1, scale_of_blocks xf yf x0 x1 b i hx0 hx1]

end Blocks

/-! ## The result arrays -/

/-- The scales as an array [2, 6400, 1]. -/
def scaleArr (xf yf : Feat) : S2x6400x1.Idx → EReal := fun j => Cert.Affinity.scaleK Body.kap xf yf (j 0) (j 1)
/-- The shifts as an array [2, 6400, 1]. -/
def shiftArr (xf yf : Feat) : S2x6400x1.Idx → EReal := fun j => Cert.Affinity.shiftK Body.kap xf yf (j 0) (j 1)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: point `t` is batch `t / 25`, row tile `t % 25`. -/
theorem idx_facts : ∀ t : Fin cfg0.N,
    win0_0.index t (0 : Fin 3) = t.val / 25 ∧ win0_0.index t (1 : Fin 3) = 0 ∧ win0_0.index t (2 : Fin 3) = t.val % 25
    ∧ win0_1.index t (0 : Fin 3) = t.val / 25 ∧ win0_1.index t (1 : Fin 3) = 0 ∧ win0_1.index t (2 : Fin 3) = 0
    ∧ win0_2.index t (0 : Fin 3) = t.val / 25 ∧ win0_2.index t (1 : Fin 3) = t.val % 25 ∧ win0_2.index t (2 : Fin 3) = 0
    ∧ win0_3.index t (0 : Fin 3) = t.val / 25 ∧ win0_3.index t (1 : Fin 3) = t.val % 25 ∧ win0_3.index t (2 : Fin 3) = 0 :=
  (by decide +kernel : ∀ t : Fin grid0.N, _)

theorem t_lt (t : Fin cfg0.N) : t.val < 50 := by have h : grid0.N = 50 := N_0; have ht : t.val < grid0.N := t.isLt; omega

/-- The row block at point `t` is rows `256 (t % 25) …` of batch `t / 25` of the first feature array. -/
theorem blk0_read (c : Dev nD) (t : Fin cfg0.N) (ch : Fin 2) (r : Fin 256) :
    iblk0 V c 0 t (ix3 (0 : Fin 1) ch r)
      = V c main_v14 (ix3 (⟨t.val / 25, by have := t_lt t; omega⟩ : Fin 2) ch
          (⟨(⟨t.val % 25, Nat.mod_lt _ (by decide)⟩ : Fin 25).val * 256 + r.val, by have := r.isLt; have : t.val % 25 < 25 := Nat.mod_lt _ (by decide); show t.val % 25 * 256 + r.val < 6400; omega⟩ : Fin 6400)) := by
  obtain ⟨e0, e1, e2, -⟩ := idx_facts t
  show V c main_v14 (((cfg0.win 0).blk t).view.emb (ix3 (0 : Fin 1) ch r)) = V c main_v14 _
  refine congrArg (V c main_v14) (funext fun a => Fin.ext ?_)
  match a with
  | ⟨0, _⟩ => show win0_0.index t (0 : Fin 3) * 1 + 1 * 0 = t.val / 25; omega
  | ⟨1, _⟩ => show win0_0.index t (1 : Fin 3) * 2 + 1 * ch.val = ch.val; omega
  | ⟨2, _⟩ => show win0_0.index t (2 : Fin 3) * 256 + 1 * r.val = t.val % 25 * 256 + r.val; omega

/-- The column block at point `t` is all of batch `t / 25` of the second feature array. -/
theorem blk1_read (c : Dev nD) (t : Fin cfg0.N) (ch : Fin 2) (m : Fin 6400) :
    iblk0 V c 1 t (ix3 (0 : Fin 1) ch m) = V c main_v20 (ix3 (⟨t.val / 25, by have := t_lt t; omega⟩ : Fin 2) ch m) := by
  obtain ⟨-, -, -, e0, e1, e2, -⟩ := idx_facts t
  show V c main_v20 (((cfg0.win 1).blk t).view.emb (ix3 (0 : Fin 1) ch m)) = V c main_v20 _
  refine congrArg (V c main_v20) (funext fun a => Fin.ext ?_)
  match a with
  | ⟨0, _⟩ => show win0_1.index t (0 : Fin 3) * 1 + 1 * 0 = t.val / 25; omega
  | ⟨1, _⟩ => show win0_1.index t (1 : Fin 3) * 2 + 1 * ch.val = ch.val; omega
  | ⟨2, _⟩ => show win0_1.index t (2 : Fin 3) * 6400 + 1 * m.val = m.val; omega

/-- What point `t` writes back to the scale array is block `t` of the scales. -/
theorem flushed2_eq (c : Dev nD) (t : Fin cfg0.N) :
    (dat0 V c).flushed 2 t = ((cfg0.win 2).blk t).view.read (Elt Ideal) (scaleArr (V c main_v14) (V c main_v20)) := by
  show (cfg0.win 2).cut (grid0.coords t) ((dat0 V c).after 2 t) = _
  rw [after0_2]
  unfold out0_2
  rw [View.canon_unit_zero hz3]
  simp only [View.ld_unit_zero (S := S1x2x256) hz3, View.ld_unit_zero (S := S1x2x6400) hz3]
  funext j
  obtain ⟨z, r, u, rfl⟩ : ∃ (z : Fin 1) (r : Fin 256) (u : Fin 1), j = ix3 z r u := ⟨j 0, j 1, j 2, eq_ix3 j⟩
  obtain ⟨-, -, -, -, -, -, e0, e1, e2, -⟩ := idx_facts t
  show k0_pay5 (F := Ideal) (iblk0 V c 0 t) (iblk0 V c 1 t) (ix3 z r u)
    = scaleArr (V c main_v14) (V c main_v20) (((cfg0.win 2).blk t).view.emb (ix3 z r u))
  refine (Body.pay5_apply (iblk0 V c 0 t) (iblk0 V c 1 t) z r u).trans ?_
  refine (scale_of_blocks (V c main_v14) (V c main_v20) (iblk0 V c 0 t) (iblk0 V c 1 t)
    (⟨t.val / 25, by have := t_lt t; omega⟩ : Fin 2) (⟨t.val % 25, Nat.mod_lt _ (by decide)⟩ : Fin 25)
    (fun ch r => blk0_read V c t ch r) (fun ch m => blk1_read V c t ch m) r u).trans ?_
  unfold scaleArr
  refine congr (congrArg _ (Fin.ext ?_)) (Fin.ext ?_)
  · show t.val / 25 = win0_2.index t (0 : Fin 3) * 1 + 1 * z.val; have := z.isLt; omega
  · show t.val % 25 * 256 + r.val = win0_2.index t (1 : Fin 3) * 256 + 1 * r.val; omega

/-- What point `t` writes back to the shift array is block `t` of the shifts. -/
theorem flushed3_eq (c : Dev nD) (t : Fin cfg0.N) :
    (dat0 V c).flushed 3 t = ((cfg0.win 3).blk t).view.read (Elt Ideal) (shiftArr (V c main_v14) (V c main_v20)) := by
  show (cfg0.win 3).cut (grid0.coords t) ((dat0 V c).after 3 t) = _
  rw [after0_3]
  unfold out0_3
  rw [View.canon_unit_zero hz3]
  simp only [View.ld_unit_zero (S := S1x2x256) hz3, View.ld_unit_zero (S := S1x2x6400) hz3]
  funext j
  obtain ⟨z, r, u, rfl⟩ : ∃ (z : Fin 1) (r : Fin 256) (u : Fin 1), j = ix3 z r u := ⟨j 0, j 1, j 2, eq_ix3 j⟩
  obtain ⟨-, -, -, -, -, -, -, -, -, e0, e1, e2⟩ := idx_facts t
  show k0_pay1 (F := Ideal) (k0_pay4 (F := Ideal) (iblk0 V c 0 t) (iblk0 V c 1 t)) (ix3 z r u)
    = shiftArr (V c main_v14) (V c main_v20) (((cfg0.win 3).blk t).view.emb (ix3 z r u))
  refine (Body.pay1_apply (k0_pay4 (F := Ideal) (iblk0 V c 0 t) (iblk0 V c 1 t)) z r u).trans ?_
  refine (shift_of_blocks (V c main_v14) (V c main_v20) (iblk0 V c 0 t) (iblk0 V c 1 t)
    (⟨t.val / 25, by have := t_lt t; omega⟩ : Fin 2) (⟨t.val % 25, Nat.mod_lt _ (by decide)⟩ : Fin 25)
    (fun ch r => blk0_read V c t ch r) (fun ch m => blk1_read V c t ch m) r u).trans ?_
  unfold shiftArr
  refine congr (congrArg _ (Fin.ext ?_)) (Fin.ext ?_)
  · show t.val / 25 = win0_3.index t (0 : Fin 3) * 1 + 1 * z.val; have := z.isLt; omega
  · show t.val % 25 * 256 + r.val = win0_3.index t (1 : Fin 3) * 256 + 1 * r.val; omega

/-- An index is in point `t`'s block of the scale array iff each coordinate is in the block's range. -/
theorem mem_blk2 (t : Fin cfg0.N) (j : S2x6400x1.Idx) :
    j ∈ ((cfg0.win 2).blk t).view.set ↔ ∀ a : Fin 3, win0_2.index t a * S1x256x1.size a ≤ (j a).val ∧ (j a).val < win0_2.index t a * S1x256x1.size a + S1x256x1.size a := by
  show j ∈ ((View.whole main_v21_0).slice (win0_2.rect t)).set ↔ _
  rw [View.set_slice_whole, Rect.mem_set_unit]
  exact Iff.rfl

theorem mem_blk3 (t : Fin cfg0.N) (j : S2x6400x1.Idx) :
    j ∈ ((cfg0.win 3).blk t).view.set ↔ ∀ a : Fin 3, win0_3.index t a * S1x256x1.size a ≤ (j a).val ∧ (j a).val < win0_3.index t a * S1x256x1.size a + S1x256x1.size a := by
  show j ∈ ((View.whole main_v21_1).slice (win0_3.rect t)).set ↔ _
  rw [View.set_slice_whole, Rect.mem_set_unit]
  exact Iff.rfl

/-- The point whose block holds row `j 1` of batch `j 0`. -/
def pointOf (j : S2x6400x1.Idx) : Fin cfg0.N :=
  ⟨(j 0).val * 25 + (j 1).val / 256, by
    have h : grid0.N = 50 := N_0
    have h0 : (j 0).val < 2 := (j 0).isLt
    have h1 : (j 1).val < 6400 := (j 1).isLt
    show (j 0).val * 25 + (j 1).val / 256 < grid0.N
    omega⟩

theorem cover2 (j : S2x6400x1.Idx) : ∃ t : Fin cfg0.N, (cfg0.win 2).flush t = true ∧ j ∈ ((cfg0.win 2).blk t).view.set := by
  have h0 : (j 0).val < 2 := (j 0).isLt
  have h1 : (j 1).val < 6400 := (j 1).isLt
  have h2 : (j 2).val < 1 := (j 2).isLt
  refine ⟨pointOf j, flush0_2 _, ?_⟩
  rw [mem_blk2]
  obtain ⟨-, -, -, -, -, -, e0, e1, e2, -⟩ := idx_facts (pointOf j)
  have ht : (pointOf j).val = (j 0).val * 25 + (j 1).val / 256 := rfl
  intro a
  match a with
  | ⟨0, _⟩ => show win0_2.index (pointOf j) (0 : Fin 3) * 1 ≤ (j 0).val ∧ (j 0).val < win0_2.index (pointOf j) (0 : Fin 3) * 1 + 1; omega
  | ⟨1, _⟩ => show win0_2.index (pointOf j) (1 : Fin 3) * 256 ≤ (j 1).val ∧ (j 1).val < win0_2.index (pointOf j) (1 : Fin 3) * 256 + 256; omega
  | ⟨2, _⟩ => show win0_2.index (pointOf j) (2 : Fin 3) * 1 ≤ (j 2).val ∧ (j 2).val < win0_2.index (pointOf j) (2 : Fin 3) * 1 + 1; omega

theorem cover3 (j : S2x6400x1.Idx) : ∃ t : Fin cfg0.N, (cfg0.win 3).flush t = true ∧ j ∈ ((cfg0.win 3).blk t).view.set := by
  have h0 : (j 0).val < 2 := (j 0).isLt
  have h1 : (j 1).val < 6400 := (j 1).isLt
  have h2 : (j 2).val < 1 := (j 2).isLt
  refine ⟨pointOf j, flush0_3 _, ?_⟩
  rw [mem_blk3]
  obtain ⟨-, -, -, -, -, -, -, -, -, e0, e1, e2⟩ := idx_facts (pointOf j)
  have ht : (pointOf j).val = (j 0).val * 25 + (j 1).val / 256 := rfl
  intro a
  match a with
  | ⟨0, _⟩ => show win0_3.index (pointOf j) (0 : Fin 3) * 1 ≤ (j 0).val ∧ (j 0).val < win0_3.index (pointOf j) (0 : Fin 3) * 1 + 1; omega
  | ⟨1, _⟩ => show win0_3.index (pointOf j) (1 : Fin 3) * 256 ≤ (j 1).val ∧ (j 1).val < win0_3.index (pointOf j) (1 : Fin 3) * 256 + 256; omega
  | ⟨2, _⟩ => show win0_3.index (pointOf j) (2 : Fin 3) * 1 ≤ (j 2).val ∧ (j 2).val < win0_3.index (pointOf j) (2 : Fin 3) * 1 + 1; omega

/-- After the region the scale array holds the scales of the feature arrays the region found. -/
theorem final2 (c : Dev nD) : (dat0 V c).arrAt 2 cfg0.N = scaleArr (V c main_v14) (V c main_v20) :=
  (dat0 V c).arrAt_eq_of_cover 2 _ (fun t _ => flushed2_eq V c t) cover2

/-- After the region the shift array holds the shifts of the feature arrays the region found. -/
theorem final3 (c : Dev nD) : (dat0 V c).arrAt 3 cfg0.N = shiftArr (V c main_v14) (V c main_v20) :=
  (dat0 V c).arrAt_eq_of_cover 3 _ (fun t _ => flushed3_eq V c t) cover3

end Cert.KernelIdeal.Region0

end
-- ==== Proof.Body1.lean ====
/-
  The second kernel's body at an index, at the exact values.  Its loads are the [1, 2, 6400] block of all row features,
  a [1, 2, 256] block of column features, and the [1, 6400, 1] scale and shift columns; it stores, per column of the
  block, the maximum over all rows of `exp (shift - distance · scale)`.
-/
import proofs.«161821_j14353780703730_2_alg».proof.Proof.Gen.KernelIdeal.Skeleton
import proofs.«161821_j14353780703730_2_alg».proof.Proof.Affinity
import proofs.«161821_j14353780703730_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.LibColumns

/-- Column `j` of the stored block: the fold of max from `-∞` over all rows `n` of the exponential of row `n`'s shift
    minus the distance of (`n`, `j`) times row `n`'s scale. -/
theorem colmax_apply (v0 : Vec Ideal S1x2x6400 .f32) (v2 : Vec Ideal S1x2x256 .f32) (v19 v21 : Vec Ideal S1x6400x1 .f32)
    (z u : Fin 1) (j : Fin 256) :
    k1_pay1 (F := Ideal) v0 v2 v19 v21 (ix3 z u j)
      = Finset.univ.fold max Cert.Affinity.negInf (fun n : Fin 6400 =>
          Ideal.exp (v21 (ix3 (0 : Fin 1) n (0 : Fin 1))
            - (Cert.Affinity.one - (v0 (ix3 (0 : Fin 1) (0 : Fin 2) n) * v2 (ix3 (0 : Fin 1) (0 : Fin 2) j)
                + v0 (ix3 (0 : Fin 1) (1 : Fin 2) n) * v2 (ix3 (0 : Fin 1) (1 : Fin 2) j)))
              * v19 (ix3 (0 : Fin 1) n (0 : Fin 1)))) := by
  unfold k1_pay1
  simp only [shapeCast_ab_1ab_apply, shapeCast_a_1a_apply]
  refine (multiReduction_max_cols_apply _ _ _ _ _ j).trans ?_
  refine congrArg (Finset.fold _ _ · _) (funext fun n => ?_)
  simp only [Idealize.ShloMosaic.exp, subf_apply, addf_apply, mulf_apply, broadcast_apply, broadcastTo_a1_ab_apply,
    broadcastTo_1b_ab_apply, slice2_axis0_eq, shapeCast_1ab_ab_apply]
  rw [transpose_ix2_apply, transpose_ix2_apply]
  simp only [slice2_axis0_eq, shapeCast_1ab_ab_apply]
  rfl

end Cert.KernelIdeal.Body

end
-- ==== Proof.Region1.lean ====
/-
  The second kernel region as a whole array.  Point `t` of its 2 × 25 grid works on batch `t / 25` and on columns
  `256 · (t % 25) … 256 · (t % 25) + 255`; it reads all the batch's row features with their scales and shifts and those
  columns' features, and writes back the columns' maxima over all rows.  The blocks written tile the [2, 1, 6400] result.
-/
import proofs.«161821_j14353780703730_2_alg».proof.Proof.Gen.KernelIdeal.Frame
import proofs.«161821_j14353780703730_2_alg».proof.Proof.Body1
import proofs.«161821_j14353780703730_2_alg».proof.Proof.Affinity

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Affinity (Feat)

/-- The column maxima as an array [2, 1, 6400], from feature arrays and ANY scale and shift arrays [2, 6400, 1]:
    at (batch, 0, column) the fold of max from `-∞` over the rows of `exp (shift - distance · scale)`. -/
def colArr (xf yf : Feat) (s sh : S2x6400x1.Idx → EReal) : S2x1x6400.Idx → EReal := fun j =>
  Finset.univ.fold max Cert.Affinity.negInf (fun n : Fin 6400 =>
    Ideal.exp (sh (ix3 (j 0) n (0 : Fin 1)) - Cert.Affinity.dist xf yf (j 0) n (j 2) * s (ix3 (j 0) n (0 : Fin 1))))

/-- The body's result from blocks of the feature, scale and shift arrays. -/
theorem col_of_blocks (xf yf : Feat) (s sh : S2x6400x1.Idx → EReal)
    (v0 : Vec Ideal S1x2x6400 .f32) (v2 : Vec Ideal S1x2x256 .f32) (v19 v21 : Vec Ideal S1x6400x1 .f32) (b : Fin 2) (i : Fin 25)
    (h0 : ∀ (ch : Fin 2) (n : Fin 6400), v0 (ix3 (0 : Fin 1) ch n) = xf (ix3 b ch n))
    (h2 : ∀ (ch : Fin 2) (j : Fin 256), v2 (ix3 (0 : Fin 1) ch j)
      = yf (ix3 b ch ⟨i.val * 256 + j.val, by have := i.isLt; have := j.isLt; omega⟩))
    (h19 : ∀ n : Fin 6400, v19 (ix3 (0 : Fin 1) n (0 : Fin 1)) = s (ix3 b n (0 : Fin 1)))
    (h21 : ∀ n : Fin 6400, v21 (ix3 (0 : Fin 1) n (0 : Fin 1)) = sh (ix3 b n (0 : Fin 1)))
    (z u : Fin 1) (j : Fin 256) :
    k1_pay1 (F := Ideal) v0 v2 v19 v21 (ix3 z u j)
      = colArr xf yf s sh (ix3 b (0 : Fin 1) ⟨i.val * 256 + j.val, by have := i.isLt; have := j.isLt; omega⟩) := by
  rw [Body.colmax_apply]
  unfold colArr
  simp only [h0, h2, h19, h21]
  rfl

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: point `t` is batch `t / 25`, column tile `t % 25`. -/
theorem idx_facts : ∀ t : Fin cfg1.N,
    win1_0.index t (0 : Fin 3) = t.val / 25 ∧ win1_0.index t (1 : Fin 3) = 0 ∧ win1_0.index t (2 : Fin 3) = 0
    ∧ win1_1.index t (0 : Fin 3) = t.val / 25 ∧ win1_1.index t (1 : Fin 3) = 0 ∧ win1_1.index t (2 : Fin 3) = t.val % 25
    ∧ win1_2.index t (0 : Fin 3) = t.val / 25 ∧ win1_2.index t (1 : Fin 3) = 0 ∧ win1_2.index t (2 : Fin 3) = 0
    ∧ win1_3.index t (0 : Fin 3) = t.val / 25 ∧ win1_3.index t (1 : Fin 3) = 0 ∧ win1_3.index t (2 : Fin 3) = 0
    ∧ win1_4.index t (0 : Fin 3) = t.val / 25 ∧ win1_4.index t (1 : Fin 3) = 0 ∧ win1_4.index t (2 : Fin 3) = t.val % 25 :=
  (by decide +kernel : ∀ t : Fin grid1.N, _)

theorem t_lt (t : Fin cfg1.N) : t.val < 50 := by have h : grid1.N = 50 := N_1; have ht : t.val < grid1.N := t.isLt; omega

theorem blk0_read (c : Dev nD) (t : Fin cfg1.N) (ch : Fin 2) (n : Fin 6400) :
    iblk1 V c 0 t (ix3 (0 : Fin 1) ch n) = V c main_v14 (ix3 (⟨t.val / 25, by have := t_lt t; omega⟩ : Fin 2) ch n) := by
  obtain ⟨e0, e1, e2, -⟩ := idx_facts t
  show V c main_v14 (((cfg1.win 0).blk t).view.emb (ix3 (0 : Fin 1) ch n)) = V c main_v14 _
  refine congrArg (V c main_v14) (funext fun a => Fin.ext ?_)
  match a with
  | ⟨0, _⟩ => show win1_0.index t (0 : Fin 3) * 1 + 1 * 0 = t.val / 25; omega
  | ⟨1, _⟩ => show win1_0.index t (1 : Fin 3) * 2 + 1 * ch.val = ch.val; omega
  | ⟨2, _⟩ => show win1_0.index t (2 : Fin 3) * 6400 + 1 * n.val = n.val; omega

theorem blk1_read (c : Dev nD) (t : Fin cfg1.N) (ch : Fin 2) (j : Fin 256) :
    iblk1 V c 1 t (ix3 (0 : Fin 1) ch j)
      = V c main_v20 (ix3 (⟨t.val / 25, by have := t_lt t; omega⟩ : Fin 2) ch
          (⟨(⟨t.val % 25, Nat.mod_lt _ (by decide)⟩ : Fin 25).val * 256 + j.val, by have := j.isLt; have : t.val % 25 < 25 := Nat.mod_lt _ (by decide); show t.val % 25 * 256 + j.val < 6400; omega⟩ : Fin 6400)) := by
  obtain ⟨-, -, -, e0, e1, e2, -⟩ := idx_facts t
  show V c main_v20 (((cfg1.win 1).blk t).view.emb (ix3 (0 : Fin 1) ch j)) = V c main_v20 _
  refine congrArg (V c main_v20) (funext fun a => Fin.ext ?_)
  match a with
  | ⟨0, _⟩ => show win1_1.index t (0 : Fin 3) * 1 + 1 * 0 = t.val / 25; omega
  | ⟨1, _⟩ => show win1_1.index t (1 : Fin 3) * 2 + 1 * ch.val = ch.val; omega
  | ⟨2, _⟩ => show win1_1.index t (2 : Fin 3) * 256 + 1 * j.val = t.val % 25 * 256 + j.val; omega

theorem blk2_read (c : Dev nD) (t : Fin cfg1.N) (n : Fin 6400) :
    iblk1 V c 2 t (ix3 (0 : Fin 1) n (0 : Fin 1))
      = V c main_v21_0 (ix3 (⟨t.val / 25, by have := t_lt t; omega⟩ : Fin 2) n (0 : Fin 1)) := by
  obtain ⟨-, -, -, -, -, -, e0, e1, e2, -⟩ := idx_facts t
  show V c main_v21_0 (((cfg1.win 2).blk t).view.emb (ix3 (0 : Fin 1) n (0 : Fin 1))) = V c main_v21_0 _
  refine congrArg (V c main_v21_0) (funext fun a => Fin.ext ?_)
  match a with
  | ⟨0, _⟩ => show win1_2.index t (0 : Fin 3) * 1 + 1 * 0 = t.val / 25; omega
  | ⟨1, _⟩ => show win1_2.index t (1 : Fin 3) * 6400 + 1 * n.val = n.val; omega
  | ⟨2, _⟩ => show win1_2.index t (2 : Fin 3) * 1 + 1 * 0 = 0; omega

theorem blk3_read (c : Dev nD) (t : Fin cfg1.N) (n : Fin 6400) :
    iblk1 V c 3 t (ix3 (0 : Fin 1) n (0 : Fin 1))
      = V c main_v21_1 (ix3 (⟨t.val / 25, by have := t_lt t; omega⟩ : Fin 2) n (0 : Fin 1)) := by
  obtain ⟨-, -, -, -, -, -, -, -, -, e0, e1, e2, -⟩ := idx_facts t
  show V c main_v21_1 (((cfg1.win 3).blk t).view.emb (ix3 (0 : Fin 1) n (0 : Fin 1))) = V c main_v21_1 _
  refine congrArg (V c main_v21_1) (funext fun a => Fin.ext ?_)
  match a with
  | ⟨0, _⟩ => show win1_3.index t (0 : Fin 3) * 1 + 1 * 0 = t.val / 25; omega
  | ⟨1, _⟩ => show win1_3.index t (1 : Fin 3) * 6400 + 1 * n.val = n.val; omega
  | ⟨2, _⟩ => show win1_3.index t (2 : Fin 3) * 1 + 1 * 0 = 0; omega

/-- What point `t` writes back is block `t` of the column maxima. -/
theorem flushed4_eq (c : Dev nD) (t : Fin cfg1.N) :
    (dat1 V c).flushed 4 t = ((cfg1.win 4).blk t).view.read (Elt Ideal)
      (colArr (V c main_v14) (V c main_v20) (V c main_v21_0) (V c main_v21_1)) := by
  show (cfg1.win 4).cut (grid1.coords t) ((dat1 V c).after 4 t) = _
  rw [after1_4]
  unfold out1_4
  rw [View.canon_unit_zero hz3]
  simp only [View.ld_unit_zero (S := S1x2x6400) hz3, View.ld_unit_zero (S := S1x2x256) hz3, View.ld_unit_zero (S := S1x6400x1) hz3]
  funext j
  obtain ⟨z, u, q, rfl⟩ : ∃ (z : Fin 1) (u : Fin 1) (q : Fin 256), j = ix3 z u q := ⟨j 0, j 1, j 2, eq_ix3 j⟩
  obtain ⟨-, -, -, -, -, -, -, -, -, -, -, -, e0, e1, e2⟩ := idx_facts t
  show k1_pay1 (F := Ideal) (iblk1 V c 0 t) (iblk1 V c 1 t) (iblk1 V c 2 t) (iblk1 V c 3 t) (ix3 z u q)
    = colArr (V c main_v14) (V c main_v20) (V c main_v21_0) (V c main_v21_1) (((cfg1.win 4).blk t).view.emb (ix3 z u q))
  refine (col_of_blocks (V c main_v14) (V c main_v20) (V c main_v21_0) (V c main_v21_1)
    (iblk1 V c 0 t) (iblk1 V c 1 t) (iblk1 V c 2 t) (iblk1 V c 3 t)
    (⟨t.val / 25, by have := t_lt t; omega⟩ : Fin 2) (⟨t.val % 25, Nat.mod_lt _ (by decide)⟩ : Fin 25)
    (fun ch n => blk0_read V c t ch n) (fun ch j => blk1_read V c t ch j) (fun n => blk2_read V c t n) (fun n => blk3_read V c t n)
    z u q).trans ?_
  refine congrArg (colArr (V c main_v14) (V c main_v20) (V c main_v21_0) (V c main_v21_1)) (funext fun a => Fin.ext ?_)
  match a with
  | ⟨0, _⟩ => show t.val / 25 = win1_4.index t (0 : Fin 3) * 1 + 1 * z.val; have := z.isLt; omega
  | ⟨1, _⟩ => show 0 = win1_4.index t (1 : Fin 3) * 1 + 1 * u.val; have := u.isLt; omega
  | ⟨2, _⟩ => show t.val % 25 * 256 + q.val = win1_4.index t (2 : Fin 3) * 256 + 1 * q.val; omega

theorem mem_blk4 (t : Fin cfg1.N) (j : S2x1x6400.Idx) :
    j ∈ ((cfg1.win 4).blk t).view.set ↔ ∀ a : Fin 3, win1_4.index t a * S1x1x256.size a ≤ (j a).val ∧ (j a).val < win1_4.index t a * S1x1x256.size a + S1x1x256.size a := by
  show j ∈ ((View.whole main_v22).slice (win1_4.rect t)).set ↔ _
  rw [View.set_slice_whole, Rect.mem_set_unit]
  exact Iff.rfl

/-- The point whose block holds column `j 2` of batch `j 0`. -/
def pointOf (j : S2x1x6400.Idx) : Fin cfg1.N :=
  ⟨(j 0).val * 25 + (j 2).val / 256, by
    have h : grid1.N = 50 := N_1
    have h0 : (j 0).val < 2 := (j 0).isLt
    have h2 : (j 2).val < 6400 := (j 2).isLt
    show (j 0).val * 25 + (j 2).val / 256 < grid1.N
    omega⟩

theorem cover4 (j : S2x1x6400.Idx) : ∃ t : Fin cfg1.N, (cfg1.win 4).flush t = true ∧ j ∈ ((cfg1.win 4).blk t).view.set := by
  have h0 : (j 0).val < 2 := (j 0).isLt
  have h1 : (j 1).val < 1 := (j 1).isLt
  have h2 : (j 2).val < 6400 := (j 2).isLt
  refine ⟨pointOf j, flush1_4 _, ?_⟩
  rw [mem_blk4]
  obtain ⟨-, -, -, -, -, -, -, -, -, -, -, -, e0, e1, e2⟩ := idx_facts (pointOf j)
  have ht : (pointOf j).val = (j 0).val * 25 + (j 2).val / 256 := rfl
  intro a
  match a with
  | ⟨0, _⟩ => show win1_4.index (pointOf j) (0 : Fin 3) * 1 ≤ (j 0).val ∧ (j 0).val < win1_4.index (pointOf j) (0 : Fin 3) * 1 + 1; omega
  | ⟨1, _⟩ => show win1_4.index (pointOf j) (1 : Fin 3) * 1 ≤ (j 1).val ∧ (j 1).val < win1_4.index (pointOf j) (1 : Fin 3) * 1 + 1; omega
  | ⟨2, _⟩ => show win1_4.index (pointOf j) (2 : Fin 3) * 256 ≤ (j 2).val ∧ (j 2).val < win1_4.index (pointOf j) (2 : Fin 3) * 256 + 256; omega

/-- After the region the result array holds the column maxima of the arrays the region found. -/
theorem final4 (c : Dev nD) : (dat1 V c).arrAt 4 cfg1.N
    = colArr (V c main_v14) (V c main_v20) (V c main_v21_0) (V c main_v21_1) :=
  (dat1 V c).arrAt_eq_of_cover 4 _ (fun t _ => flushed4_eq V c t) cover4

end Cert.KernelIdeal.Region1

end
-- ==== Proof.AffinityLaw.lean ====
/-
  The folded form and the quotient form of the affinity agree on real features inside the unit disc.

  Fix a batch and a row.  On features in the unit disc every distance of the row is a real number `d m ≥ 0`
  (`x₀ y₀ + x₁ y₁ ≤ (x₀² + x₁² + y₀² + y₁²) / 2 ≤ 1`), so the row's minimum is a real `ρ ≥ 0` and the scaled minimum
  `r = ρ + ε` is a positive real.  With the bandwidth `h` and `κ = 1 / h` the two exponents are the same real,
  `(1 - d m / r) / h = κ - d m · (κ / r)`; the row sum `S` of their exponentials is a positive real; and
  `exp (κ - log S - d m · (κ / r)) = exp (κ - d m · (κ / r)) / S`.
-/
import proofs.«161821_j14353780703730_2_alg».proof.Proof.Affinity

noncomputable section

open scoped BigOperators

namespace Cert.Affinity

open Idealize.ShloMosaic Idealize.ShloMosaic.ValueIdx

/-! ## The constants -/

/-- the bandwidth word 0x3DCCCCCD denotes 13421773 / 134217728 -/
theorem band_eq : band = ((13421773 / 134217728 : ℝ) : EReal) := by
  unfold band; simp [Ideal.ofBits, Ideal.ieee, -EReal.coe_mul]; norm_num

namespace Law

/-- the word 0x3F800000 denotes one -/
theorem one_eq : one = ((1 : ℝ) : EReal) := by
  unfold one; simp [Ideal.ofBits, Ideal.ieee, -EReal.coe_mul]; norm_num

/-- the word 0x3727C5AC denotes a positive real -/
theorem epsMin_pos : ∃ ε : ℝ, 0 < ε ∧ epsMin = (ε : EReal) := by
  refine ⟨10995116 / 1099511627776, by norm_num, ?_⟩
  unfold epsMin; simp [Ideal.ofBits, Ideal.ieee, -EReal.coe_mul]; norm_num

/-- the word 0x7F800000 denotes plus infinity -/
theorem posInf_eq : posInf = ⊤ := by
  unfold posInf; simp [Ideal.ofBits, Ideal.ieee]

/-! ## Finite sums and folds of real numbers among the extended reals -/

/-- a finite sum of real numbers, summed among the extended reals, is the real sum -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- the fold of min from plus infinity over a nonempty family of reals that are not negative is such a real -/
theorem fold_min_real {ι : Type*} (s : Finset ι) (hs : s.Nonempty) (f : ι → ℝ) (hf : ∀ i ∈ s, 0 ≤ f i) :
    ∃ ρ : ℝ, 0 ≤ ρ ∧ s.fold min (⊤ : EReal) (fun i => ((f i : ℝ) : EReal)) = (ρ : EReal) := by
  obtain ⟨i0, hi0⟩ := hs
  have hle : s.fold min (⊤ : EReal) (fun i => ((f i : ℝ) : EReal)) ≤ ((f i0 : ℝ) : EReal) :=
    (Finset.fold_min_le _).mpr (Or.inr ⟨i0, hi0, le_rfl⟩)
  have hge : (0 : EReal) ≤ s.fold min (⊤ : EReal) (fun i => ((f i : ℝ) : EReal)) :=
    (Finset.le_fold_min _).mpr ⟨le_top, fun i hi => by exact_mod_cast hf i hi⟩
  have hnt : s.fold min (⊤ : EReal) (fun i => ((f i : ℝ) : EReal)) ≠ ⊤ :=
    ne_of_lt (lt_of_le_of_lt hle (EReal.coe_lt_top _))
  have hnb : s.fold min (⊤ : EReal) (fun i => ((f i : ℝ) : EReal)) ≠ ⊥ :=
    ne_of_gt (lt_of_lt_of_le EReal.bot_lt_zero hge)
  exact ⟨_, EReal.toReal_nonneg hge, (EReal.coe_toReal hnt hnb).symm⟩

/-! ## One row, abstractly -/

/-- For real distances `d`, a positive real scaled minimum `ρ + ε`, and `κ = 1 / h`: the folded form of one
    element is the quotient form. -/
theorem row_law (d : Fin 6400 → ℝ) (ρ ε κ h : ℝ) (hh : h ≠ 0) (hκh : κ = 1 / h) (hρ : 0 ≤ ρ) (hε : 0 < ε)
    (m : Fin 6400) :
    Ideal.exp (((κ : EReal)
          - Ideal.log (∑ m' : Fin 6400, Ideal.exp ((κ : EReal)
              - ((d m' : ℝ) : EReal) * Ideal.div (κ : EReal) ((ρ : EReal) + (ε : EReal)))))
        - ((d m : ℝ) : EReal) * Ideal.div (κ : EReal) ((ρ : EReal) + (ε : EReal)))
      = Ideal.div (Ideal.exp (Ideal.div (((1 : ℝ) : EReal) - Ideal.div ((d m : ℝ) : EReal) ((ρ : EReal) + (ε : EReal)))
            (h : EReal)))
          (∑ m' : Fin 6400, Ideal.exp (Ideal.div (((1 : ℝ) : EReal)
            - Ideal.div ((d m' : ℝ) : EReal) ((ρ : EReal) + (ε : EReal))) (h : EReal))) := by
  have hr : ρ + ε ≠ 0 := (by linarith : 0 < ρ + ε).ne'
  have hsc : Ideal.div (κ : EReal) ((ρ : EReal) + (ε : EReal)) = ((κ * (1 / (ρ + ε)) : ℝ) : EReal) := by
    rw [← EReal.coe_add, Ideal.div_coe hr, ← EReal.coe_mul]
  have hK : ∀ m' : Fin 6400, Ideal.exp ((κ : EReal) - ((d m' : ℝ) : EReal) * Ideal.div (κ : EReal) ((ρ : EReal) + (ε : EReal)))
      = ((Real.exp (κ - d m' * (κ * (1 / (ρ + ε)))) : ℝ) : EReal) := by
    intro m'; rw [hsc, ← EReal.coe_mul, ← EReal.coe_sub, Ideal.exp_coe]
  have hR : ∀ m' : Fin 6400, Ideal.exp (Ideal.div (((1 : ℝ) : EReal)
        - Ideal.div ((d m' : ℝ) : EReal) ((ρ : EReal) + (ε : EReal))) (h : EReal))
      = ((Real.exp (κ - d m' * (κ * (1 / (ρ + ε)))) : ℝ) : EReal) := by
    intro m'
    have e : (1 - d m' * (1 / (ρ + ε))) * (1 / h) = κ - d m' * (κ * (1 / (ρ + ε))) := by rw [hκh]; ring
    rw [← EReal.coe_add, Ideal.div_coe hr, ← EReal.coe_mul, ← EReal.coe_sub, Ideal.div_coe hh, ← EReal.coe_mul,
      Ideal.exp_coe, e]
  have hSpos : 0 < ∑ m' : Fin 6400, Real.exp (κ - d m' * (κ * (1 / (ρ + ε)))) :=
    Finset.sum_pos (fun i _ => Real.exp_pos _) Finset.univ_nonempty
  simp only [hK, hR]
  rw [coe_sum]
  generalize (∑ m' : Fin 6400, Real.exp (κ - d m' * (κ * (1 / (ρ + ε))))) = S at hSpos ⊢
  rw [Ideal.log_coe, if_neg (not_le.mpr hSpos), hsc, ← EReal.coe_sub, ← EReal.coe_mul, ← EReal.coe_sub, Ideal.exp_coe,
    Ideal.div_coe hSpos.ne', ← EReal.coe_mul]
  rw [show κ - Real.log S - d m * (κ * (1 / (ρ + ε))) = (κ - d m * (κ * (1 / (ρ + ε)))) - Real.log S by ring,
    Real.exp_sub, Real.exp_log hSpos, div_eq_mul_one_div]

/-! ## The row of a feature pair in the unit disc -/

/-- on features in the unit disc the distances of a row are real numbers that are not negative -/
theorem dist_real (xf yf : Feat) (hx : InDisc xf) (hy : InDisc yf) (b : Fin 2) (n : Fin 6400) :
    ∃ d : Fin 6400 → ℝ, (∀ m, 0 ≤ d m) ∧ ∀ m, dist xf yf b n m = ((d m : ℝ) : EReal) := by
  obtain ⟨p0, p1, hp0, hp1, hp⟩ := hx b n
  choose q0 q1 hq0 hq1 hq using hy b
  refine ⟨fun m => 1 - (p0 * q0 m + p1 * q1 m), fun m => ?_, fun m => ?_⟩
  · show 0 ≤ 1 - (p0 * q0 m + p1 * q1 m)
    have := hq m
    nlinarith [sq_nonneg (p0 - q0 m), sq_nonneg (p1 - q1 m)]
  · show dist xf yf b n m = ((1 - (p0 * q0 m + p1 * q1 m) : ℝ) : EReal)
    unfold dist
    rw [hp0, hp1, hq0 m, hq1 m, one_eq, ← EReal.coe_mul, ← EReal.coe_mul, ← EReal.coe_add, ← EReal.coe_sub]

/-- hence the row's minimum is a real number that is not negative -/
theorem rowMin_real (xf yf : Feat) (hx : InDisc xf) (hy : InDisc yf) (b : Fin 2) (n : Fin 6400) :
    ∃ ρ : ℝ, 0 ≤ ρ ∧ rowMin xf yf b n = (ρ : EReal) := by
  obtain ⟨d, hd0, hd⟩ := dist_real xf yf hx hy b n
  obtain ⟨ρ, hρ0, hρ⟩ := fold_min_real Finset.univ Finset.univ_nonempty d (fun i _ => hd0 i)
  refine ⟨ρ, hρ0, ?_⟩
  unfold rowMin
  rw [posInf_eq, ← hρ]
  exact congrArg (fun f => Finset.fold min (⊤ : EReal) f Finset.univ) (funext hd)

end Law

/-! ## The two forms agree -/

/-- element by element the two forms agree -/
theorem affK_eq_affR (κ : EReal) (hκ : κ = ((134217728 / 13421773 : ℝ) : EReal)) (xf yf : Feat)
    (hx : InDisc xf) (hy : InDisc yf) (b : Fin 2) (n m : Fin 6400) : affK κ xf yf b n m = affR xf yf b n m := by
  obtain ⟨d, _, hd⟩ := Law.dist_real xf yf hx hy b n
  obtain ⟨ρ, hρ0, hρ⟩ := Law.rowMin_real xf yf hx hy b n
  obtain ⟨ε, hε0, hε⟩ := Law.epsMin_pos
  unfold affK shiftK rowSumK argK scaleK affR rowSumR argR
  simp only [hd, hρ, hε, Law.one_eq, band_eq, hκ]
  exact Law.row_law d ρ ε _ _ (by norm_num) (by norm_num) hρ0 hε0 m

/-- hence the column maxima agree -/
theorem colMaxK_eq_colMaxR (κ : EReal) (hκ : κ = ((134217728 / 13421773 : ℝ) : EReal)) (xf yf : Feat)
    (hx : InDisc xf) (hy : InDisc yf) (b : Fin 2) (m : Fin 6400) : colMaxK κ xf yf b m = colMaxR xf yf b m := by
  unfold colMaxK colMaxR
  exact congrArg (fun f => Finset.fold max negInf f Finset.univ)
    (funext fun n => affK_eq_affR κ hκ xf yf hx hy b n m)

end Cert.Affinity

end
-- ==== Proof.RefRead.lean ====
/-
  The reference program between its two feature stages and its result, read index by index.

  From the feature stages (two arrays [2, 2, 6400]) the reference forms the cosine distance of every pair of
  positions, the least distance of each row, the scaled and exponentiated distances, their row sums, the quotient
  of the two, and the maximum of each column.  Each stage is read here at an index and identified with the
  corresponding quantity of the quotient form of the specification; the closing operations on the column maxima are
  the specification's literally.
-/
import proofs.«161821_j14353780703730_2_alg».proof.Proof.Gen.ReferenceIdeal.Read
import proofs.«161821_j14353780703730_2_alg».proof.Proof.Affinity
import Idealize.ShloMosaic.Lib.ValueIdx
import Idealize.ShloMosaic.PureOps.Ideal.Laws
import Idealize.ShloMosaic.PureOps.Reduce

noncomputable section

namespace Cert.RefRead

open Idealize.ShloMosaic Idealize.ShloMosaic.ValueIdx Cert.ReferenceIdeal Cert.ReferenceIdeal.Read

variable [Cert.ReferenceIdeal.Facts]

open Cert.ReferenceIdeal.Facts₀

/-! ## Index maps at literal coordinates -/

theorem lidx21 (b : Fin 2) (n m : Fin 6400) (k : Fin 2) : lidx_main_v21 (ix3 b n m) k = ix3 b k n :=
  funext fun a => Fin.ext (by match a with | ⟨0, _⟩ => rfl | ⟨1, _⟩ => rfl | ⟨2, _⟩ => rfl)

theorem ridx21 (b : Fin 2) (n m : Fin 6400) (k : Fin 2) : ridx_main_v21 (ix3 b n m) k = ix3 b k m :=
  funext fun a => Fin.ext (by match a with | ⟨0, _⟩ => rfl | ⟨1, _⟩ => rfl | ⟨2, _⟩ => rfl)

theorem idx25_28 (b : Fin 2) (n m : Fin 6400) : idx_main_v25 (idx_main_v28 (ix3 b n m)) = ix2 b n :=
  funext fun a => Fin.ext (by match a with | ⟨0, _⟩ => rfl | ⟨1, _⟩ => rfl)

theorem idx36_37 (b : Fin 2) (n m : Fin 6400) : idx_main_v36 (idx_main_v37 (ix3 b n m)) = ix2 b n :=
  funext fun a => Fin.ext (by match a with | ⟨0, _⟩ => rfl | ⟨1, _⟩ => rfl)

theorem idx35 (b : Fin 2) (n k : Fin 6400) : idx_main_v35 (ix2 b n) k = ix3 b n k :=
  funext fun a => Fin.ext (by match a with | ⟨0, _⟩ => rfl | ⟨1, _⟩ => rfl | ⟨2, _⟩ => rfl)

/-- The row index (b, n) with a column put back on the last axis is (b, n, column). -/
theorem lift_d2 (h : S2x6400x6400.Reduces [2] S2x6400) (b : Fin 2) (n : Fin 6400) (k : Fin (S2x6400x6400.size 2)) :
    h.lift (ix2 b n) k = ix3 b n (⟨k.val, k.isLt⟩ : Fin 6400) :=
  funext fun a => Fin.ext (by match a with | ⟨0, _⟩ => rfl | ⟨1, _⟩ => rfl | ⟨2, _⟩ => rfl)

/-- The column index (b, m) with a row put back on the middle axis is (b, row, m). -/
theorem lift_d1 (h : S2x6400x6400.Reduces [1] S2x6400) (b : Fin 2) (m : Fin 6400) (k : Fin (S2x6400x6400.size 1)) :
    h.lift (ix2 b m) k = ix3 b (⟨k.val, k.isLt⟩ : Fin 6400) m :=
  funext fun a => Fin.ext (by match a with | ⟨0, _⟩ => rfl | ⟨1, _⟩ => rfl | ⟨2, _⟩ => rfl)

/-! ## The stages -/

/-- stage main_v23 is the cosine distance of the two feature stages -/
theorem dist_eq (a0 a1 : FVec Ideal S2x2x80x80 .f32) (b : Fin 2) (n m : Fin 6400) :
    val_main_v23 (F := Ideal) a0 a1 (ix3 b n m)
      = Cert.Affinity.dist (val_main_v14 (F := Ideal) a0 a1) (val_main_v20 (F := Ideal) a1) b n m := by
  rw [val_main_v23_apply, val_main_v22_apply, val_main_cst_3_apply, val_main_v21_apply, Fin.sum_univ_two,
    lidx21, lidx21, ridx21, ridx21]
  rfl

/-- stage main_v24 is the least distance of each row, folded from +∞ -/
theorem rowMin_eq (a0 a1 : FVec Ideal S2x2x80x80 .f32) (b : Fin 2) (n : Fin 6400) :
    val_main_v24 (F := Ideal) a0 a1 (ix2 b n)
      = Cert.Affinity.rowMin (val_main_v14 (F := Ideal) a0 a1) (val_main_v20 (F := Ideal) a1) b n := by
  unfold val_main_v24
  rw [Host.reduce_eq_fold_single FloatOps.minimumf _ _ reducesTo_S2x6400x6400_S2x6400_d2 (by decide) h_S_]
  unfold Cert.Affinity.rowMin Cert.Affinity.posInf
  refine Finset.fold_congr fun k _ => ?_
  show val_main_v23 (F := Ideal) a0 a1 (Shape.Reduces.lift _ (ix2 b n) k) = _
  rw [lift_d2]
  exact dist_eq a0 a1 b n k

/-- stage main_v33 is the exponent of the quotient form -/
theorem arg_eq (a0 a1 : FVec Ideal S2x2x80x80 .f32) (b : Fin 2) (n m : Fin 6400) :
    val_main_v33 (F := Ideal) a0 a1 (ix3 b n m)
      = Cert.Affinity.argR (val_main_v14 (F := Ideal) a0 a1) (val_main_v20 (F := Ideal) a1) b n m := by
  rw [val_main_v33_apply, val_main_v32_apply, val_main_cst_7_apply, val_main_v31_apply, val_main_v30_apply,
    val_main_cst_6_apply, val_main_v29_apply, val_main_v28_apply, val_main_v27_apply, val_main_v25_apply,
    val_main_v26_apply, val_main_cst_5_apply, idx25_28, rowMin_eq, dist_eq]
  rfl

/-- stage main_v35 is the row sum of the exponentials -/
theorem rowSum_eq (a0 a1 : FVec Ideal S2x2x80x80 .f32) (b : Fin 2) (n : Fin 6400) :
    val_main_v35 (F := Ideal) a0 a1 (ix2 b n)
      = Cert.Affinity.rowSumR (val_main_v14 (F := Ideal) a0 a1) (val_main_v20 (F := Ideal) a1) b n := by
  rw [val_main_v35_apply, val_main_cst_8_apply, Ideal.ofBits_def, Ideal.ofBits_zero_f32, zero_add]
  unfold Cert.Affinity.rowSumR
  refine Finset.sum_congr rfl fun k _ => ?_
  rw [idx35, val_main_v34_apply, arg_eq]
  rfl

/-- stage main_v38 is the quotient of the exponential by its row sum -/
theorem aff_eq (a0 a1 : FVec Ideal S2x2x80x80 .f32) (b : Fin 2) (n m : Fin 6400) :
    val_main_v38 (F := Ideal) a0 a1 (ix3 b n m)
      = Cert.Affinity.affR (val_main_v14 (F := Ideal) a0 a1) (val_main_v20 (F := Ideal) a1) b n m := by
  rw [val_main_v38_apply, val_main_v37_apply, val_main_v36_apply, idx36_37, rowSum_eq, val_main_v34_apply, arg_eq]
  rfl

/-- the column maxima the reference computes (stage main_v39, [2, 6400]) are the quotient form's, of its own feature stages -/
theorem colmax_eq (a0 a1 : FVec Ideal S2x2x80x80 .f32) (b : Fin 2) (m : Fin 6400) :
    val_main_v39 (F := Ideal) a0 a1 (ix2 b m)
      = Cert.Affinity.colMaxR (val_main_v14 (F := Ideal) a0 a1) (val_main_v20 (F := Ideal) a1) b m := by
  unfold val_main_v39
  rw [Host.reduce_eq_fold_single FloatOps.maximumf _ _ reducesTo_S2x6400x6400_S2x6400_d1 (by decide) h_S_]
  unfold Cert.Affinity.colMaxR Cert.Affinity.negInf
  refine Finset.fold_congr fun k _ => ?_
  show val_main_v38 (F := Ideal) a0 a1 (Shape.Reduces.lift _ (ix2 b m) k) = _
  rw [lift_d1]
  exact aff_eq a0 a1 b k m

/-- the result is the shared closing operations applied to the column maxima -/
theorem result_eq (a0 a1 : FVec Ideal S2x2x80x80 .f32) :
    val_main_v48 (F := Ideal) a0 a1
      = Cert.Affinity.loss Cert.ReferenceIdeal.Facts₀.reducesTo_S2x6400_S2_d1 Cert.ReferenceIdeal.Facts₀.h_S_ Cert.ReferenceIdeal.Facts₀.bcast_S_S2 Cert.ReferenceIdeal.Facts₀.reducesTo_S2_S_d0 (val_main_v39 (F := Ideal) a0 a1) := by
  unfold val_main_v48 val_main_v47 val_main_v46 val_main_v45 val_main_v44 val_main_v43 val_main_v42 val_main_v41 val_main_v40
    val_main_cst_14 val_main_cst_13 val_main_cst_12 val_main_cst_11 val_main_cst_10 Cert.Affinity.loss
  rfl

end Cert.RefRead

end
-- ==== Proof.Whole.lean ====
/-
  The idealized kernel program's result as a function of its two arguments.  The operations before the first region
  leave the normalised feature arrays; the first region leaves each row's scale and shift; the second the column maxima
  of `exp (shift - distance · scale)`, which on real features inside the unit disc are the column maxima of the
  row-normalised affinities; the operations after the regions turn the maxima into the loss.
-/
import proofs.«161821_j14353780703730_2_alg».proof.Proof.Gen.KernelIdeal.Frame
import proofs.«161821_j14353780703730_2_alg».proof.Proof.Gen.ReferenceIdeal.Read
import proofs.«161821_j14353780703730_2_alg».proof.Proof.Region0
import proofs.«161821_j14353780703730_2_alg».proof.Proof.Region1
import proofs.«161821_j14353780703730_2_alg».proof.Proof.Affinity
import proofs.«161821_j14353780703730_2_alg».proof.Proof.AffinityLaw
import proofs.«161821_j14353780703730_2_alg».proof.Proof.RefRead
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)
open Cert.Affinity (Feat)

variable (m : (ℓ : Loc nD τ sig) → Buf (Elt Ideal) ℓ) (ρ : Dev nD → PrngReg)

/-! ## The windows a region only reads are never written back -/

theorem noflush0_0 : ∀ t : Fin cfg0.N, (cfg0.win 0).flush t = false :=
  (by decide +kernel : ∀ t : Fin grid0.N, win0_0.flush t = false)
theorem noflush0_1 : ∀ t : Fin cfg0.N, (cfg0.win 1).flush t = false :=
  (by decide +kernel : ∀ t : Fin grid0.N, win0_1.flush t = false)

/-- An array the first region only reads is after the region what it was before. -/
theorem kept0 (V : (c : Dev nD) → (b : Ref sig .tc) → Buf (Elt Ideal) ((c : Thread nD τ).loc b)) (c : Dev nD)
    (w : Fin cfg0.W) (hw : ∀ t : Fin cfg0.N, (cfg0.win w).flush t = false) :
    (dat0 V c).arrAt w cfg0.N = V c (Pipeline.arrRef spec0 w) :=
  funext fun i => ((dat0 V c).arrAt_apply_of_forall_not_mem w cfg0.N i
    (fun t _ hf => by rw [hw t] at hf; exact absurd hf Bool.false_ne_true)).trans (congrFun (A_eq0 V c w) i)

/-! ## The contents at the boundaries -/

/-- The first feature array as the first region finds it: the reference's own feature stage of the arguments. -/
theorem entry_xf (c : Dev nD) :
    V5 m ρ c main_v14 = Cert.ReferenceIdeal.Read.val_main_v14 (F := Ideal)
      (m ((c.tc : Thread nD τ).loc main_arg0)) (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v14) = _
  after_results
  rfl

/-- The second feature array as the first region finds it. -/
theorem entry_yf (c : Dev nD) :
    V5 m ρ c main_v20 = Cert.ReferenceIdeal.Read.val_main_v20 (F := Ideal) (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v20) = _
  after_results
  rfl

theorem mid_xf (c : Dev nD) : V6 m ρ c main_v14 = V5 m ρ c main_v14 :=
  (W6_arr m ρ c 0).trans (kept0 (V5 m ρ) c 0 noflush0_0)
theorem mid_yf (c : Dev nD) : V6 m ρ c main_v20 = V5 m ρ c main_v20 :=
  (W6_arr m ρ c 1).trans (kept0 (V5 m ρ) c 1 noflush0_1)
theorem mid_scale (c : Dev nD) : V6 m ρ c main_v21_0 = Region0.scaleArr (V5 m ρ c main_v14) (V5 m ρ c main_v20) :=
  (W6_arr m ρ c 2).trans (Region0.final2 (V5 m ρ) c)
theorem mid_shift (c : Dev nD) : V6 m ρ c main_v21_1 = Region0.shiftArr (V5 m ρ c main_v14) (V5 m ρ c main_v20) :=
  (W6_arr m ρ c 3).trans (Region0.final3 (V5 m ρ) c)

/-- The column maxima after the second region, of the feature arrays the first region found. -/
theorem exit_colmax (c : Dev nD) :
    V7 m ρ c main_v22 = Region1.colArr (V5 m ρ c main_v14) (V5 m ρ c main_v20)
      (Region0.scaleArr (V5 m ρ c main_v14) (V5 m ρ c main_v20)) (Region0.shiftArr (V5 m ρ c main_v14) (V5 m ρ c main_v20)) := by
  refine ((W7_arr m ρ c 4).trans (Region1.final4 (V6 m ρ) c)).trans ?_
  rw [mid_xf, mid_yf, mid_scale, mid_shift]

/-- With each row's own scale and shift the second region's maxima are the folded form's. -/
theorem colArr_folded (xf yf : Feat) (b : Fin 2) (q : Fin 6400) :
    Region1.colArr xf yf (Region0.scaleArr xf yf) (Region0.shiftArr xf yf) (ix3 b (0 : Fin 1) q)
      = Cert.Affinity.colMaxK Body.kap xf yf b q := rfl

/-- The result buffer at the last boundary: the closing operations applied to the column maxima, the unit axis dropped. -/
theorem result_eq (c : Dev nD) (h1 : (⟨2, ![2, 6400]⟩ : Shape).ReducesTo [1] ⟨1, ![2]⟩) (h0 : 0 < (⟨0, ![]⟩ : Shape).numel)
    (hb : (⟨0, ![]⟩ : Shape).BroadcastsInDim ⟨1, ![2]⟩ (![] : Fin 0 → Fin (⟨1, ![2]⟩ : Shape).rank))
    (h2 : (⟨1, ![2]⟩ : Shape).ReducesTo [0] ⟨0, ![]⟩) (hc : S2x1x6400.ShapeCasts S2x6400) :
    W8 m ρ c (Proc.devRef .tc main_v32)
      = Cert.Affinity.loss h1 h0 hb h2 (shapeCast S2x6400 (V7 m ρ c main_v22) hc) := by
  show StableHlo.after hostOps2 (W7 m ρ c) (Proc.devRef .tc main_v32) = _
  after_results
  rfl

/-- THE VALUE: on arguments whose feature arrays are real and inside the unit disc the result is the closing operations
    applied to the reference's own column maxima. -/
theorem value (c : Dev nD)
    (hx : Cert.Affinity.InDisc (Cert.ReferenceIdeal.Read.val_main_v14 (F := Ideal)
      (m ((c.tc : Thread nD τ).loc main_arg0)) (m ((c.tc : Thread nD τ).loc main_arg1))))
    (hy : Cert.Affinity.InDisc (Cert.ReferenceIdeal.Read.val_main_v20 (F := Ideal) (m ((c.tc : Thread nD τ).loc main_arg1))))
    (h1 : (⟨2, ![2, 6400]⟩ : Shape).ReducesTo [1] ⟨1, ![2]⟩) (h0 : 0 < (⟨0, ![]⟩ : Shape).numel)
    (hb : (⟨0, ![]⟩ : Shape).BroadcastsInDim ⟨1, ![2]⟩ (![] : Fin 0 → Fin (⟨1, ![2]⟩ : Shape).rank))
    (h2 : (⟨1, ![2]⟩ : Shape).ReducesTo [0] ⟨0, ![]⟩) :
    W8 m ρ c (Proc.devRef .tc main_v32)
      = Cert.Affinity.loss h1 h0 hb h2 (Cert.ReferenceIdeal.Read.val_main_v39 (F := Ideal)
          (m ((c.tc : Thread nD τ).loc main_arg0)) (m ((c.tc : Thread nD τ).loc main_arg1))) := by
  refine (result_eq m ρ c h1 h0 hb h2 shapeCasts_S2x1x6400_S2x6400).trans (congrArg (Cert.Affinity.loss h1 h0 hb h2) (funext fun j => ?_))
  obtain ⟨b, q, rfl⟩ : ∃ (b : Fin 2) (q : Fin 6400), j = ix2 b q := ⟨j 0, j 1, eq_ix2 j⟩
  refine (shapeCast_apply (V7 m ρ c main_v22) shapeCasts_S2x1x6400_S2x6400 (ix2 b q) (ix3 b (0 : Fin 1) q) (by
    show (S2x1x6400.rowMajor (ix3 b (0 : Fin 1) q)).val = (S2x6400.rowMajor (ix2 b q)).val
    rw [Shape.rowMajor_val_three, Shape.rowMajor_val_two]
    show (b.val * 1 + 0) * 6400 + q.val = b.val * 6400 + q.val
    omega)).trans ?_
  rw [exit_colmax, colArr_folded, entry_xf, entry_yf]
  rw [Cert.Affinity.colMaxK_eq_colMaxR Body.kap Body.kap_eq _ _ hx hy b q]
  exact (Cert.RefRead.colmax_eq _ _ b q).symm

end Cert.KernelIdeal.Whole

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Features.lean ====
/-
  The normalised features are real and lie in the unit disc.

  With `t` the mean over the 6400 positions of the second input per batch and channel, `x = first - t` and
  `y = second - t`, a feature is `f(b, c, n) = v(b, c, n) / (√(v(b, 0, n)² + v(b, 1, n)²) + δ)`, where `v` is `x` or `y`
  and `δ` is the positive constant of the word 0x2EDBE6FF.  When the inputs are real numbers so are the mean (a sum of
  reals divided by 6400), the centred arrays (differences of reals), and the features (a real divided by the nonzero
  real `N + δ`, `N` the square root of a nonnegative real); and the two channels `p`, `q` of a feature at one position
  satisfy `p² + q² = N² / (N + δ)² ≤ 1`.  The finiteness precondition compares the absolute value of every input
  element with plus infinity, which says element by element that the inputs are real.
-/
import proofs.«161821_j14353780703730_2_alg».proof.Proof.Gen.ReferenceIdeal.Read
import proofs.«161821_j14353780703730_2_alg».proof.Proof.Affinity
import proofs.«161821_j14353780703730_2_alg».proof.Proof.LibReal
import proofs.«161821_j14353780703730_2_alg».proof.Pre_finite_inputs
import Idealize.ShloMosaic.Lib.ReduceAll
import Idealize.ShloMosaic.Lib.ValueIdx

noncomputable section

namespace Cert.Features

open Idealize.ShloMosaic Idealize.ShloMosaic.ValueIdx
open Cert.LibReal

/-! ## The real-analysis core -/

/-- A plane vector divided by its length plus a positive constant lies in the closed unit disc: with
    `N = √(v₀² + v₁²)` the two quotients' squares add to `N² / (N + δ)² ≤ 1`. -/
theorem disc_core (v0 v1 δ : ℝ) (hδ : 0 < δ) :
    (v0 / (Real.sqrt (v0 ^ 2 + v1 ^ 2) + δ)) ^ 2 + (v1 / (Real.sqrt (v0 ^ 2 + v1 ^ 2) + δ)) ^ 2 ≤ 1 := by
  have hs : 0 ≤ v0 ^ 2 + v1 ^ 2 := by positivity
  have hN0 : 0 ≤ Real.sqrt (v0 ^ 2 + v1 ^ 2) := Real.sqrt_nonneg _
  have hNN : Real.sqrt (v0 ^ 2 + v1 ^ 2) ^ 2 = v0 ^ 2 + v1 ^ 2 := Real.sq_sqrt hs
  generalize Real.sqrt (v0 ^ 2 + v1 ^ 2) = N at hN0 hNN
  have hD : 0 < N + δ := by linarith
  rw [div_pow, div_pow, ← add_div, div_le_one (by positivity), ← hNN]
  nlinarith

/-! ## The constants -/

/-- The word 0x2EDBE6FF denotes a positive real number (14411519 · 2⁻⁵⁷, about 10⁻¹⁰). -/
theorem delta_pos : ∃ δ : ℝ, 0 < δ ∧ Ideal.ofBits .f32 0x2EDBE6FF#32 = (δ : EReal) := by
  refine ⟨14411519 * (2 : ℝ) ^ (-57 : ℤ), by positivity, ?_⟩
  simp [Ideal.ofBits, Ideal.ieee]

/-- The word 0x45C80000 denotes 6400. -/
theorem c6400 : Ideal.ofBits .f32 0x45C80000#32 = ((6400 : ℝ) : EReal) := by
  simp [Ideal.ofBits, Ideal.ieee]
  rw [← EReal.coe_mul]
  norm_num

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- A real number divided by the square root of a sum of two real squares plus a positive real is the real quotient. -/
theorem feat_real (u v0 v1 δ : ℝ) (hδ : 0 < δ) :
    Ideal.div (u : EReal) (Ideal.sqrt (0 + ((v0 : EReal) * (v0 : EReal) + (v1 : EReal) * (v1 : EReal))) + (δ : EReal))
      = ((u / (Real.sqrt (v0 ^ 2 + v1 ^ 2) + δ) : ℝ) : EReal) := by
  have hs : 0 ≤ v0 ^ 2 + v1 ^ 2 := by positivity
  have hD : Real.sqrt (v0 ^ 2 + v1 ^ 2) + δ ≠ 0 := ne_of_gt (by have := Real.sqrt_nonneg (v0 ^ 2 + v1 ^ 2); linarith)
  rw [zero_add, ← EReal.coe_mul, ← EReal.coe_mul, ← EReal.coe_add, ← pow_two, ← pow_two, Ideal.sqrt_coe,
    if_neg (not_lt.2 hs), ← EReal.coe_add, Ideal.div_coe hD, ← EReal.coe_mul, mul_one_div]

/-! ## The index maps at coordinates -/

open Cert.ReferenceIdeal

/-- Position `n` of the flattened array is row `n / 80`, column `n % 80`, batch and channel kept. -/
theorem idx14_eq (b c : Fin 2) (n : Fin 6400) :
    Read.idx_main_v14 (ix3 b c n) = ix4 b c ⟨n.val / 80, by omega⟩ ⟨n.val % 80, by omega⟩ := by
  funext a
  match a with
  | ⟨0, _⟩ => exact Fin.ext (by show ((b.val * 2 + c.val) * 6400 + n.val) / 12800 = b.val; omega)
  | ⟨1, _⟩ => exact Fin.ext (by show ((b.val * 2 + c.val) * 6400 + n.val) / 6400 % 2 = c.val; omega)
  | ⟨2, _⟩ => exact Fin.ext (by show ((b.val * 2 + c.val) * 6400 + n.val) / 80 % 80 = n.val / 80; omega)
  | ⟨3, _⟩ => exact Fin.ext (by show ((b.val * 2 + c.val) * 6400 + n.val) % 80 = n.val % 80; omega)

theorem idx20_eq (b c : Fin 2) (n : Fin 6400) :
    Read.idx_main_v20 (ix3 b c n) = ix4 b c ⟨n.val / 80, by omega⟩ ⟨n.val % 80, by omega⟩ := idx14_eq b c n

/-- The norm at an element reads channel `k` at the element's batch, row and column. -/
theorem chan0_eq (i : S2x2x80x80.Idx) (k : Fin 2) :
    Read.idx_main_call0_v1 (Read.idx_main_call0_v2 (Read.idx_main_v12 i)) k = ix4 (i 0) k (i 2) (i 3) := by
  funext a
  match a with
  | ⟨0, _⟩ => rfl
  | ⟨1, _⟩ => rfl
  | ⟨2, _⟩ => rfl
  | ⟨3, _⟩ => rfl

theorem chan1_eq (i : S2x2x80x80.Idx) (k : Fin 2) :
    Read.idx_main_call1_v1 (Read.idx_main_call1_v2 (Read.idx_main_v18 i)) k = ix4 (i 0) k (i 2) (i 3) := chan0_eq i k

/-! ## The centred arrays are real -/

/-- The mean over the positions of a real array is real, per batch and channel. -/
theorem v3_real (a1 : FVec Ideal S2x2x80x80 .f32) (h1 : ∀ i, IsReal (a1 i)) (i : S2x2.Idx) :
    IsReal (Read.val_main_v3 (F := Ideal) a1 i) := by
  rw [Read.val_main_v3_apply, Read.val_main_v1_apply, Read.val_main_v2_apply, Read.val_main_cst_0_apply,
    Read.val_main_cst_apply]
  simp only [Ideal.hostDivf_def, Ideal.ofBits_def, c6400, Ideal.ofBits_zero_f32]
  rw [Ideal.div_coe (by norm_num)]
  refine IsReal.mul (IsReal.add IsReal.zero (IsReal.sum _ _ fun k _ => ?_)) (IsReal.coe _)
  rw [Read.val_main_v0_apply]
  exact h1 _

/-- The first input minus the mean of the second is real. -/
theorem v6_real (a0 a1 : FVec Ideal S2x2x80x80 .f32) (h0 : ∀ i, IsReal (a0 i)) (h1 : ∀ i, IsReal (a1 i))
    (i : S2x2x80x80.Idx) : IsReal (Read.val_main_v6 (F := Ideal) a0 a1 i) := by
  rw [Read.val_main_v6_apply, Read.val_main_v5_apply, Read.val_main_v4_apply, Ideal.subf_def]
  exact IsReal.sub (h0 i) (v3_real a1 h1 _)

/-- The second input minus its mean is real. -/
theorem v8_real (a1 : FVec Ideal S2x2x80x80 .f32) (h1 : ∀ i, IsReal (a1 i))
    (i : S2x2x80x80.Idx) : IsReal (Read.val_main_v8 (F := Ideal) a1 i) := by
  rw [Read.val_main_v8_apply, Read.val_main_v7_apply, Read.val_main_v4_apply, Ideal.subf_def]
  exact IsReal.sub (h1 i) (v3_real a1 h1 _)

/-! ## A feature element, read from the centred array -/

theorem v13_eq (a0 a1 : FVec Ideal S2x2x80x80 .f32) (i : S2x2x80x80.Idx) :
    Read.val_main_v13 (F := Ideal) a0 a1 i =
      Ideal.div (Read.val_main_v6 (F := Ideal) a0 a1 i)
        (Ideal.sqrt (0 + (Read.val_main_v6 (F := Ideal) a0 a1 (ix4 (i 0) 0 (i 2) (i 3)) * Read.val_main_v6 (F := Ideal) a0 a1 (ix4 (i 0) 0 (i 2) (i 3))
            + Read.val_main_v6 (F := Ideal) a0 a1 (ix4 (i 0) 1 (i 2) (i 3)) * Read.val_main_v6 (F := Ideal) a0 a1 (ix4 (i 0) 1 (i 2) (i 3))))
          + Ideal.ofBits .f32 0x2EDBE6FF#32) := by
  rw [Read.val_main_v13_apply, Read.val_main_v12_apply, Read.val_main_v11_apply, Read.val_main_v9_apply,
    Read.val_main_call0_v2_apply, Read.val_main_call0_v1_apply, Read.val_main_v10_apply, Read.val_main_cst_1_apply,
    Read.val_main_call0_cst_apply, Fin.sum_univ_two, Read.val_main_call0_v0_apply, Read.val_main_call0_v0_apply,
    chan0_eq, chan0_eq]
  simp only [Ideal.hostDivf_def, Ideal.ofBits_def, Ideal.ofBits_zero_f32, Ideal.hostUnary_sqrt_def, Ideal.addf_def,
    Ideal.mulf_def]
  rfl

theorem v19_eq (a1 : FVec Ideal S2x2x80x80 .f32) (i : S2x2x80x80.Idx) :
    Read.val_main_v19 (F := Ideal) a1 i =
      Ideal.div (Read.val_main_v8 (F := Ideal) a1 i)
        (Ideal.sqrt (0 + (Read.val_main_v8 (F := Ideal) a1 (ix4 (i 0) 0 (i 2) (i 3)) * Read.val_main_v8 (F := Ideal) a1 (ix4 (i 0) 0 (i 2) (i 3))
            + Read.val_main_v8 (F := Ideal) a1 (ix4 (i 0) 1 (i 2) (i 3)) * Read.val_main_v8 (F := Ideal) a1 (ix4 (i 0) 1 (i 2) (i 3))))
          + Ideal.ofBits .f32 0x2EDBE6FF#32) := by
  rw [Read.val_main_v19_apply, Read.val_main_v18_apply, Read.val_main_v17_apply, Read.val_main_v15_apply,
    Read.val_main_call1_v2_apply, Read.val_main_call1_v1_apply, Read.val_main_v16_apply, Read.val_main_cst_2_apply,
    Read.val_main_call1_cst_apply, Fin.sum_univ_two, Read.val_main_call1_v0_apply, Read.val_main_call1_v0_apply,
    chan1_eq, chan1_eq]
  simp only [Ideal.hostDivf_def, Ideal.ofBits_def, Ideal.ofBits_zero_f32, Ideal.hostUnary_sqrt_def, Ideal.addf_def,
    Ideal.mulf_def]
  rfl

/-- An array that divides a real array `v`, element by element, by the length of its two channels plus the positive
    constant has its two channels in the unit disc at every position. -/
theorem inDisc_of (f : Cert.Affinity.Feat) (v : S2x2x80x80.Idx → EReal) (hv : ∀ i, IsReal (v i))
    (hf : ∀ (b c : Fin 2) (n : Fin 6400), f (ix3 b c n) =
      Ideal.div (v (ix4 b c ⟨n.val / 80, by omega⟩ ⟨n.val % 80, by omega⟩))
        (Ideal.sqrt (0 + (v (ix4 b 0 ⟨n.val / 80, by omega⟩ ⟨n.val % 80, by omega⟩) * v (ix4 b 0 ⟨n.val / 80, by omega⟩ ⟨n.val % 80, by omega⟩)
            + v (ix4 b 1 ⟨n.val / 80, by omega⟩ ⟨n.val % 80, by omega⟩) * v (ix4 b 1 ⟨n.val / 80, by omega⟩ ⟨n.val % 80, by omega⟩)))
          + Ideal.ofBits .f32 0x2EDBE6FF#32)) :
    Cert.Affinity.InDisc f := by
  intro b n
  obtain ⟨δ, hδ, hδe⟩ := delta_pos
  obtain ⟨p0, hp0⟩ := hv (ix4 b 0 ⟨n.val / 80, by omega⟩ ⟨n.val % 80, by omega⟩)
  obtain ⟨p1, hp1⟩ := hv (ix4 b 1 ⟨n.val / 80, by omega⟩ ⟨n.val % 80, by omega⟩)
  refine ⟨p0 / (Real.sqrt (p0 ^ 2 + p1 ^ 2) + δ), p1 / (Real.sqrt (p0 ^ 2 + p1 ^ 2) + δ), ?_, ?_, disc_core p0 p1 δ hδ⟩
  · rw [hf b 0 n, hp0, hp1, hδe]; exact feat_real p0 p0 p1 δ hδ
  · rw [hf b 1 n, hp0, hp1, hδe]; exact feat_real p1 p0 p1 δ hδ

/-! ## The statements -/

/-- the precondition: every element of both inputs is a real number -/
theorem real_of_pre [Cert.Pre_finite_inputs.Facts] (a0 a1 : FVec Ideal Cert.Pre_finite_inputs.S2x2x80x80 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h' := congrFun h ix0
  dsimp only [Cert.Pre_finite_inputs.fn] at h'
  obtain ⟨e0, e1⟩ := IntOp.andi_eq_one.1 h'
  exact ⟨fun i => elem_real _ a0 i (Host.reduce_andi_all _ _ _ _ _ e0 i),
    fun i => elem_real _ a1 i (Host.reduce_andi_all _ _ _ _ _ e1 i)⟩

/-- The first feature array: real, its two channels in the unit disc. -/
theorem xf_inDisc [Cert.ReferenceIdeal.Facts] (a0 a1 : FVec Ideal Cert.ReferenceIdeal.S2x2x80x80 .f32)
    (h0 : ∀ i, ∃ r : ℝ, a0 i = (r : EReal)) (h1 : ∀ i, ∃ r : ℝ, a1 i = (r : EReal)) :
    Cert.Affinity.InDisc (Cert.ReferenceIdeal.Read.val_main_v14 (F := Ideal) a0 a1) := by
  refine inDisc_of _ (Read.val_main_v6 (F := Ideal) a0 a1) (v6_real a0 a1 h0 h1) fun b c n => ?_
  rw [Read.val_main_v14_apply, idx14_eq, v13_eq]

/-- The second feature array: real, its two channels in the unit disc. -/
theorem yf_inDisc [Cert.ReferenceIdeal.Facts] (a1 : FVec Ideal Cert.ReferenceIdeal.S2x2x80x80 .f32)
    (h1 : ∀ i, ∃ r : ℝ, a1 i = (r : EReal)) :
    Cert.Affinity.InDisc (Cert.ReferenceIdeal.Read.val_main_v20 (F := Ideal) a1) := by
  refine inDisc_of _ (Read.val_main_v8 (F := Ideal) a1) (v8_real a1 h1) fun b c n => ?_
  rw [Read.val_main_v20_apply, idx20_eq, v19_eq]

end Cert.Features

end
-- ==== Proof.lean ====
/-
  The certificate of the contextual-loss kernel against its reference.

  Both programs first normalise the two inputs to feature arrays of two channels per position (mean-centred by the
  target's mean, divided by the channel norm plus a small constant); on finite inputs these are real numbers in the
  closed unit disc.  The reference then forms all cosine distances, scales each row by its least distance plus `ε`,
  exponentiates `(1 - d/(min + ε)) / h`, normalises each row by its sum and takes column maxima.  The kernel does the
  same in two passes with the divisions folded: the first pass leaves per row the scale `κ/(min + ε)` and the shift
  `κ - log (row sum)` with `κ = 1/h` (the named constant), the second takes column maxima of
  `exp (shift - d · scale)`.  On real features in the unit disc the distances are non-negative reals, the scaled
  minimum is a positive real, the two exponents are one real number and
  `exp (κ - log S - d · κ/r) = exp (κ - d · κ/r) / S`; the closing mean, logarithm and mean are the same operations in
  both programs.
-/
import proofs.«161821_j14353780703730_2_alg».proof.Defs
import proofs.«161821_j14353780703730_2_alg».proof.Proof.Gen.Kernel
import proofs.«161821_j14353780703730_2_alg».proof.Proof.Gen.Kernel.Frame
import proofs.«161821_j14353780703730_2_alg».proof.Proof.Gen.KernelIdeal
import proofs.«161821_j14353780703730_2_alg».proof.Proof.Gen.KernelIdeal.Frame
import proofs.«161821_j14353780703730_2_alg».proof.Proof.Gen.ReferenceIdeal
import proofs.«161821_j14353780703730_2_alg».proof.Proof.Gen.ReferenceIdeal.Run
import proofs.«161821_j14353780703730_2_alg».proof.Proof.Gen.ReferenceIdeal.Read
import proofs.«161821_j14353780703730_2_alg».proof.Proof.Gen.Pre_finite_inputs
import proofs.«161821_j14353780703730_2_alg».proof.Proof.KernelRun
import proofs.«161821_j14353780703730_2_alg».proof.Proof.Whole
import proofs.«161821_j14353780703730_2_alg».proof.Proof.Features
import proofs.«161821_j14353780703730_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three uses of the literal 10 are named the reciprocal of the reference's bandwidth word. -/
theorem preserves : Cert.preserves_Kernel_KernelIdeal :=
  ⟨IdealRules.named_const.statement Cert.KernelIdeal.κ "inv_h" .f32 0x41200000#32 ((134217728 / 13421773 : ℝ) : EReal) rfl,
   IdealRules.named_const.statement Cert.KernelIdeal.κ "inv_h" .f32 0x41200000#32 ((134217728 / 13421773 : ℝ) : EReal) rfl,
   IdealRules.named_const.statement Cert.KernelIdeal.κ "inv_h" .f32 0x41200000#32 ((134217728 / 13421773 : ℝ) : EReal) rfl⟩

/-- Both programs end at the closing operations applied to the reference's column maxima of the kernel's arguments. -/
theorem algebraic : Cert.algebraic_KernelIdeal_ReferenceIdeal := by
  intro m ρ m' ρ' hpre hagree
  refine ⟨fun c => Cert.Affinity.loss Cert.ReferenceIdeal.Facts₀.reducesTo_S2x6400_S2_d1 Cert.ReferenceIdeal.Facts₀.h_S_
      Cert.ReferenceIdeal.Facts₀.bcast_S_S2 Cert.ReferenceIdeal.Facts₀.reducesTo_S2_S_d0
      (Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2.1, (h c).2.2⟩)
      (Cert.KernelIdeal.RunValue.run (F := Ideal) m ρ)
    obtain ⟨r0, r1⟩ := Cert.Features.real_of_pre _ _ (hpre c)
    exact Cert.KernelIdeal.Whole.value m ρ c (Cert.Features.xf_inDisc _ _ r0 r1) (Cert.Features.yf_inDisc _ r1) _ _ _ _
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v48_eq, Cert.RefRead.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
